-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8x1x1 : Shape := ⟨3, ![8, 1, 1]⟩
abbrev S512x512 : Shape := ⟨2, ![512, 512]⟩
abbrev S512x1 : Shape := ⟨2, ![512, 1]⟩
abbrev S1x1x1 : Shape := ⟨3, ![1, 1, 1]⟩
abbrev S1x1 : Shape := ⟨2, ![1, 1]⟩
abbrev S1x512 : Shape := ⟨2, ![1, 512]⟩
abbrev S512 : Shape := ⟨1, ![512]⟩
abbrev S1 : Shape := ⟨1, ![1]⟩

abbrev nBuf : Space → Nat
  | .hbm => 21
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S8x1x1, .f32⟩
  | .hbm, ⟨13, _⟩ => ⟨S8x1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1, .f32⟩
  | .local _ .vmem, ⟨21, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_call0_v8_0 : Ref sig .tc := ⟨.hbm, 12, rfl⟩
abbrev main_call0_v8_1 : Ref sig .tc := ⟨.hbm, 13, rfl⟩
abbrev main_call0_cst_1 : Ref sig .tc := ⟨.hbm, 14, rfl⟩
abbrev main_v0_0 : Ref sig .tc := ⟨.hbm, 15, rfl⟩
abbrev main_call0_cst_2 : Ref sig .tc := ⟨.hbm, 16, rfl⟩
abbrev main_v0_1 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v104 : BitVec 1 := Scalar.cmpi .eq arg1 c7_i32
  let v105 : BitVec 32 := Scalar.extui v104
  let c0_i32_45 : BitVec 32 := 0#32
  let v106 : BitVec 1 := Scalar.cmpi .ne v105 c0_i32_45
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bitsLt_bf16_f32 : FTy.bits .bf16 < FTy.bits .f32
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8x1x1_S_d0_1_2 : S8x1x1.ReducesTo [0, 1, 2] S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x512_p1_0_S512x512 : S512x512.Transposes [1, 0] S512x512
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .bf16 = 32 ∨ (Rect.block (s := S4096x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S8x1x1.size a
  hwx0_8 : ∀ i : grid0.Coords, EltTy.bits .f32 = 32 ∨ (Rect.block (s := S8x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S8x1x1.size a
  hwx0_9 : ∀ i : grid0.Coords, EltTy.bits .f32 = 32 ∨ (Rect.block (s := S8x1x1) S1x1x1.size (cc0_transform_9 i) (hinb0_9 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_call0_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v7) S512x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v8_0) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v8_1) S1x1x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4096x512 : Shape := ⟨2, ![4096, 512]⟩
abbrev S512x4096 : Shape := ⟨2, ![512, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 100
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x4096, .f32⟩
  | .hbm, ⟨3, _⟩ => ⟨S4096x4096, .f32⟩
  | .hbm, ⟨4, _⟩ => ⟨S4096x4096, .i32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x512, .f32⟩
  | .hbm, ⟨18, _⟩ => ⟨S_, .f32⟩
  | .hbm, ⟨19, _⟩ => ⟨S4096, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S512x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x512, .f32⟩
  | .hbm, ⟨40, _⟩ => ⟨S_, .f32⟩
  | .hbm, ⟨41, _⟩ => ⟨S4096, .f32⟩
  | .hbm, ⟨42, _⟩ => ⟨S4096x512, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S512x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x512, .f32⟩
  | .hbm, ⟨62, _⟩ => ⟨S_, .f32⟩
  | .hbm, ⟨63, _⟩ => ⟨S4096, .f32⟩
  | .hbm, ⟨64, _⟩ => ⟨S4096x512, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S1x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S512x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_cst_17 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_cst_19 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  reducesTo_S4096x512_S4096_d1 : S4096x512.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.LibFrameSharedAround.lean ====
/-
  The frame run for a pipeline whose windows SHARE AN ARRAY, in an @main that goes on after the region.

  The pipeline library runs the host lines that follow a region from the region's exit with the windows' arrays held
  window by window, which presupposes that the arrays are pairwise distinct buffers. When one array is handed to the
  kernel through several input windows the exit state holds that buffer in several shares, one per window, and the lines
  after the region cannot be run against it as it stands. Nothing deep is in the way: the lines touch only the DISTINCT
  buffers behind the arrays and the buffers that bypass the region, and those are one separating conjunction whether or
  not two windows name the same buffer (`held_tailRefs_shared`). So the certificate says, besides how the buffers behind
  the arrays are dealt to the windows at the region's entry (`hsplit`), how the windows' shares are gathered again at
  its exit into those buffers, each whole at an exit valuation `VN` (`hjoin`), and dealt back once the lines have run
  (`hsplitN`); the lines write no array (`hkeep`), so the arrays end at the proof data's final contents and every
  bypassing buffer at the lines' result from the exit valuation.

  `θ_run_frame_around_track_shared` is the library's frame run around a region with a tracking invariant, the layout
  bundle replaced by its separate facts and the arrays' distinctness by those three entailments; its conclusion is the
  same `FramePost`, read at `StableHlo.after` of the lines from `VN`.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section TailShared

variable {Ix : Type} [DecidableEq Ix] {Name : Type} [DecidableEq Name] {U : Type} [URA U] {Lvl : Type}

local notation "𝕄" => MT nD τ sig Ix Val Name U Lvl

/-- The buffers a line after the region may touch, held at `Wv`, are the distinct buffers behind the windows' arrays
    and the bypassing buffers at `Wv` - whether or not two windows share an array. -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

end TailShared

section FrameAroundShared

variable {Λ₀ : SL.Sem.Labels} {P : Type} [Fintype P] [DecidableEq P] [∀ e, Nonempty (Val e)]

local notation "𝕄" => MT nD τ sig Unit Val ℕ (UR sig nD τ) ℕ

set_option backward.isDefEq.respectTransparency.types false in
/-- THE FRAME RUN with a tracking invariant, for a pipeline whose windows may share arrays, in an @main that continues
    after the region with the host lines `opss`. -/
theorem θ_run_frame_around_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ) (howed : ∀ c t, (dats p c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (VN : Dev nD → Valuation τ sig Val)
    (hVN : ∀ c, ∀ b ∈ restRefs sig (cfgs p).spec, VN c (Proc.devRef .tc b) = V₀ c (Proc.devRef .tc b))
    (hjoin : ∀ c, (dats p c).arrays ((dats p c).arrAt · (cfgs p).N) ⊢ (arrBufs (cfgs p).spec c (fun b => VN c (Proc.devRef .tc b)) : sProp 𝕄))
    (hsplitN : ∀ c, (arrBufs (cfgs p).spec c (fun b => VN c (Proc.devRef .tc b)) : sProp 𝕄) ⊢ (dats p c).arrays ((dats p c).arrAt · (cfgs p).N))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (VN c) (Proc.devRef .tc b))) := by
  classical
  exact θ_run_region_pf_tail (fun q => (cfgs q).toPCfg (Val := Val)) (fun q => (cfgs q).toPCfg_adm) dats () hinj p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (VN c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      have hW : (StableHlo.held (c.tc : Thread nD τ) (tailRefs sig Prefetch.none (cfgs p).spec) (VN c) : sProp 𝕄)
          = iprop(arrBufs (cfgs p).spec c (fun b => VN c (Proc.devRef .tc b))
              ∗ unscopedRest (cfgs p).spec c (fun b => V₀ c (Proc.devRef .tc b))) := by
        rw [held_tailRefs_shared, unscopedRestP_none]
        congr 1
        unfold unscopedRest
        exact bigSep_congr fun b hb => by dsimp only; rw [hVN c b hb]
      have hW' : (StableHlo.held (c.tc : Thread nD τ) (tailRefs sig Prefetch.none (cfgs p).spec) (StableHlo.after opss.flatten (VN c)) : sProp 𝕄)
          = iprop(arrBufs (cfgs p).spec c (fun b => VN c (Proc.devRef .tc b))
              ∗ unscopedRest (cfgs p).spec c (fun b => StableHlo.after opss.flatten (VN c) (Proc.devRef .tc b))) := by
        rw [held_tailRefs_shared, unscopedRestP_none]
        congr 1
        unfold arrBufs
        exact bigSep_congr fun b hb => by
          obtain ⟨w, -, rfl⟩ := Finset.mem_image.mp hb
          dsimp only
          rw [StableHlo.after_of_forall_not_mem _ _ fun op hop => ?_]
          obtain ⟨ops, hops, hop⟩ := List.mem_flatten.mp hop
          exact hkeep ops hops op hop w
      have step1 : iprop((iprop((dats p c).arrays ((dats p c).arrAt · (cfgs p).N)
              ∗ unscopedRest (cfgs p).spec c (fun b => StableHlo.after opss.flatten (VN c) (Proc.devRef .tc b))) -∗ Q' ⟨⟩)
            ∗ boundary (c.tc : Thread nD τ) ∗ (dats p c).arrays ((dats p c).arrAt · (cfgs p).N)
            ∗ unscopedRest (cfgs p).spec c (fun b => V₀ c (Proc.devRef .tc b)))
          ⊢ (iprop((iprop((dats p c).arrays ((dats p c).arrAt · (cfgs p).N)
              ∗ unscopedRest (cfgs p).spec c (fun b => StableHlo.after opss.flatten (VN c) (Proc.devRef .tc b))) -∗ Q' ⟨⟩)
            ∗ boundary (c.tc : Thread nD τ)
            ∗ StableHlo.held (c.tc : Thread nD τ) (tailRefs sig Prefetch.none (cfgs p).spec) (VN c)) : sProp 𝕄) := by
        rw [hW]
        iintro ⟨Hk, Hb, HA, HZ⟩
        isplitl [Hk]; · iexact Hk
        isplitl [Hb]; · iexact Hb
        isplitl [HA]
        · iapply (hjoin c); iexact HA
        · iexact HZ
      refine step1.trans ?_
      rw [← List.append_nil (opss.map StableHlo.seq)]
      iintro ⟨Hk, Hb⟩
      iapply (wp_seqs_then (fun q => (cfgs q).toPCfg (Val := Val)) defs₀ 𝒱₀ c (tailRefs sig Prefetch.none (cfgs p).spec) [] opss hsub hfresh (VN c)) $$ Hb
      iintro Hb
      rw [chain_nil, wp_pure, hW']
      imodintro
      iapply Hk
      icases Hb with ⟨-, HA, HZ⟩
      isplitl [HA]
      · iapply (hsplitN c); iexact HA
      · iexact HZ)
    (QY := fun c s => ∀ b ∈ restRefs sig (cfgs p).spec, s.mem ((c.tc : Thread nD τ).loc b) = StableHlo.after opss.flatten (VN c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (VN c) (Proc.devRef .tc b)) s')
      isplitl [HU] <;> iassumption)
    (hQ := fun s h c => ⟨(h c).1, (h c).2.2⟩)

end FrameAroundShared

end Pipeline

end Idealize.ShloMosaic
-- ==== Proof.Kernel.Setup.lean ====
/-
  The frame of the pipelined program, first part: @main around its one region, the windows' blocks, the body's two
  branch conditions decided over the 8 x 8 grid, and where the two output windows are idle.

  The region has ten windows. Windows 0 and 1 read one array (the first table in half precision), at row block i and
  at row block j of the grid point (i, j); windows 2 and 3 likewise the second table; windows 4, 5 and 6, 7 the two
  columns of squared row norms. Windows 8 and 9 are the outputs, one entry per row block i, stored only at j = 7.
  Two one-entry scratch buffers carry the running sums from one point to the next: zeroed at j = 0, added to at
  every point, copied to the outputs at j = 7.
-/
import proofs.«174178_j69131793596443_2_alg».proof.Proof.Gen.Kernel.Launch
import proofs.«174178_j69131793596443_2_alg».proof.Proof.Gen.Kernel.Skeleton
import proofs.«174178_j69131793596443_2_alg».proof.Proof.Gen.Kernel.Points
import proofs.«174178_j69131793596443_2_alg».proof.Proof.LibFrameSharedAround
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the ten host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the host operations before the region, the region, and the two stretches of host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The operations after the region touch only unscoped buffers. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And each writes only its own result, which is no array of the region. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does an operation after it. -/
theorem tail_keeps_arg0 (W : Valuation τ sig (Elt F)) :
    StableHlo.after (List.flatten [hostOps1, hostOps1_1]) W (Proc.devRef .tc main_arg0) = W (Proc.devRef .tc main_arg0) :=
  StableHlo.after_of_forall_not_mem (b := Proc.devRef .tc main_arg0) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_arg1 (W : Valuation τ sig (Elt F)) :
    StableHlo.after (List.flatten [hostOps1, hostOps1_1]) W (Proc.devRef .tc main_arg1) = W (Proc.devRef .tc main_arg1) :=
  StableHlo.after_of_forall_not_mem (b := Proc.devRef .tc main_arg1) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "The point is the first of its row block": `j = 0`, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The point is the last of its row block": `j = 7`. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The memrefs the body is called with -/

abbrev VO0_8 : View sig .tc .vmem S1x1x1 .f32 := (Memref.whole cc0_stg8_0 : Memref sig .tc .vmem S1x1x1 .f32).view
abbrev VO0_9 : View sig .tc .vmem S1x1x1 .f32 := (Memref.whole cc0_stg9_0 : Memref sig .tc .vmem S1x1x1 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1 .f32 := win0_9.stage (cfg0.slots t 9)
abbrev hs0_9 (t : Fin cfg0.N) : (ms0_9 t).IsWhole := hstage0_9 ((cfg0.slots t 9).cast nbuf0_9)
/-- The two scratch operands. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- What the region's invariant holds before the first point: the two scratch buffers at anything and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Kernel.RunA.lean ====
/-
  The kernel body run at the first point of a row block (j = 0): both scratch buffers are zeroed, then added to; the outputs are left as found.
  The run finds, as lists of stored pieces, what each scratch buffer ends with.
-/
import proofs.«174178_j69131793596443_2_alg».proof.Proof.Kernel.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on whole staging memrefs holding the inputs' blocks `x0 … x7`: it runs to the end, hands every input back as found, and leaves the pieces it stored. -/
noncomputable def kernelRun0_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) :
    Σ' (L8 : List (View.Piece (Elt F) S1x1x1 .f32)) (L9 : List (View.Piece (Elt F) S1x1x1 .f32)) (LS0 : List (View.Piece (Elt F) S1x1 .f32)), { LS1 : List (View.Piece (Elt F) S1x1 .f32) //
      ∀ (xi8 xi9 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__combo_kernel i arg2 harg2 arg3 harg3 arg4 harg4 arg5 harg5 arg6 harg6 arg7 harg7 arg8 harg8 arg9 harg9 arg10 harg10 arg11 harg11 arg12 harg12 arg13 harg13) K } := by
  refine ⟨[], [], ?_, ?_, fun xi8 xi9 E K => ?run⟩
  case run =>
    simp only [cc0__combo_kernel_eq_skeleton]; unfold cc0__combo_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexists _; iexact HS1

end Cert.Kernel.Hand

end
-- ==== Proof.Kernel.RunB.lean ====
/-
  The kernel body run at a middle point of a row block (0 < j < 7): both scratch buffers are added to; the outputs are left as found.
  The run finds, as lists of stored pieces, what each scratch buffer ends with.
-/
import proofs.«174178_j69131793596443_2_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on whole staging memrefs holding the inputs' blocks `x0 … x7`, the scratch buffers at what the point before left (`xs0`, `xs1`): it runs to the end, hands every input back as found, and leaves the pieces it stored. -/
noncomputable def kernelRun0_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    Σ' (L8 : List (View.Piece (Elt F) S1x1x1 .f32)) (L9 : List (View.Piece (Elt F) S1x1x1 .f32)) (LS0 : List (View.Piece (Elt F) S1x1 .f32)), { LS1 : List (View.Piece (Elt F) S1x1 .f32) //
      ∀ (xi8 xi9 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__combo_kernel i arg2 harg2 arg3 harg3 arg4 harg4 arg5 harg5 arg6 harg6 arg7 harg7 arg8 harg8 arg9 harg9 arg10 harg10 arg11 harg11 arg12 harg12 arg13 harg13) K } := by
  refine ⟨[], [], ?_, ?_, fun xi8 xi9 E K => ?run⟩
  case run =>
    simp only [cc0__combo_kernel_eq_skeleton]; unfold cc0__combo_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexists _; iexact HS1

end Cert.Kernel.Hand

end
-- ==== Proof.Kernel.RunC.lean ====
/-
  The kernel body run at the last point of a row block (j = 7): both scratch buffers are added to, then copied to the outputs.
  The run finds, as lists of stored pieces, what each scratch buffer and each output buffer ends with.
-/
import proofs.«174178_j69131793596443_2_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on whole staging memrefs holding the inputs' blocks `x0 … x7`, the scratch buffers at what the point before left (`xs0`, `xs1`): it runs to the end, hands every input back as found, and leaves the pieces it stored. -/
noncomputable def kernelRun0_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    Σ' (L8 : List (View.Piece (Elt F) S1x1x1 .f32)) (L9 : List (View.Piece (Elt F) S1x1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__combo_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__combo_kernel_eq_skeleton]; unfold cc0__combo_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    iexists _; iexact HS1

end Cert.Kernel.Hand

end
-- ==== Proof.Kernel.Frame.lean ====
/-
  The frame of the pipelined program, second part: what the two outputs and the two scratch buffers hold after each
  grid point, the region's invariant carrying the scratch buffers from point to point, the body's obligation at every
  point, and the run of @main: it terminates, faults nowhere and leaves both argument tables as launched.

  Each of the four input arrays is read through two windows; the region holds such an array in two half shares, one per
  window, dealt at its entry and joined again at its exit (the arrays are only read, so both halves agree).
-/
import proofs.«174178_j69131793596443_2_alg».proof.Proof.Kernel.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The first points of a row block -/

/-- What the case leaves in output 8's staging buffer (nothing is stored: a placeholder nothing consults). -/
def out0_A_8 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) : Vec F S1x1x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1)
/-- The same for output 9. -/
def out0_A_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) : Vec F S1x1x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1)

/-- The pieces stored into the first scratch buffer cover it. -/
theorem scover0_A_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 S1x1.size (by sl_kernel_rfl) y
/-- What the case leaves in the first scratch buffer. -/
def sout0_A_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1)
/-- The pieces stored into the second scratch buffer cover it. -/
theorem scover0_A_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.1 S1x1.size (by sl_kernel_rfl) y
/-- What the case leaves in the second scratch buffer. -/
def sout0_A_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.1)

/-! ### The middle points of a row block -/

/-- What the case leaves in output 8's staging buffer (nothing is stored: a placeholder nothing consults). -/
def out0_B_8 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)
/-- The same for output 9. -/
def out0_B_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

/-- The pieces stored into the first scratch buffer cover it. -/
theorem scover0_B_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x1.size (by sl_kernel_rfl) y
/-- What the case leaves in the first scratch buffer. -/
def sout0_B_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)
/-- The pieces stored into the second scratch buffer cover it. -/
theorem scover0_B_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S1x1.size (by sl_kernel_rfl) y
/-- What the case leaves in the second scratch buffer. -/
def sout0_B_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1)

/-! ### The last points of a row block -/

theorem cover0_C_8 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S1x1x1.size (by sl_kernel_rfl) y
theorem cover0_C_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x1x1.size (by sl_kernel_rfl) y
/-- What the case leaves in output 8's staging buffer. -/
def out0_C_8 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)
/-- The same for output 9. -/
def out0_C_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1x1 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

/-- The pieces stored into the first scratch buffer cover it. -/
theorem scover0_C_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x1.size (by sl_kernel_rfl) y
/-- What the case leaves in the first scratch buffer. -/
def sout0_C_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)
/-- The pieces stored into the second scratch buffer cover it. -/
theorem scover0_C_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S1x1.size (by sl_kernel_rfl) y
/-- What the case leaves in the second scratch buffer. -/
def sout0_C_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1)

/-! ## What the buffers hold after each point -/

/-- The two outputs' staging buffers and the two scratch buffers. -/
abbrev Outs (F : FTy → Type) [FloatOps F] : Type := Vec F S1x1x1 .f32 × Vec F S1x1x1 .f32 × Vec F S1x1 .f32 × Vec F S1x1 .f32

/-- After a first point of a row block. -/
def stepA (c : Dev nD) (t : Fin cfg0.N) (h0 : t.val % 8 = 0) (h1 : ¬t.val % 8 = 7) : Outs F :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t))
/-- After a middle point, from what the point before left in the scratch buffers. -/
def stepB (c : Dev nD) (t : Fin cfg0.N) (h0 : ¬t.val % 8 = 0) (h1 : ¬t.val % 8 = 7) (xs0 xs1 : Vec F S1x1 .f32) : Outs F :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0 xs1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0 xs1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0 xs1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0 xs1)
/-- After a last point, likewise. -/
def stepC (c : Dev nD) (t : Fin cfg0.N) (h0 : ¬t.val % 8 = 0) (h1 : t.val % 8 = 7) (xs0 xs1 : Vec F S1x1 .f32) : Outs F :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0 xs1, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0 xs1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0 xs1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0 xs1)

/-- THE ACCUMULATION: what the four buffers hold after the body at position `n`, by recursion on the position. -/
def outsAt0 (c : Dev nD) : (n : ℕ) → n < cfg0.N → Outs F
  | 0, hn => stepA m c ⟨0, hn⟩ (Nat.zero_mod _) (by show ¬(0 % 8 = 7); decide)
  | n + 1, hn =>
    if h0 : (n + 1) % 8 = 0 then
      if h1 : (n + 1) % 8 = 7 then False.elim (by omega)
      else stepA m c ⟨n + 1, hn⟩ h0 h1
    else
      if h1 : (n + 1) % 8 = 7 then stepC m c ⟨n + 1, hn⟩ h0 h1 (outsAt0 c n (Nat.lt_of_succ_lt hn)).2.2.1 (outsAt0 c n (Nat.lt_of_succ_lt hn)).2.2.2
      else stepB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 8 = 0) (h1 : ¬t.val % 8 = 7) :
    outsAt0 m c t.val t.isLt = stepA m c t h0 h1 := by
  obtain ⟨n, hn⟩ := t
  cases n with
  | zero => rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both scratch buffers at anything; afterwards
    each at what the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body each input's buffer at its block,
    the outputs' at `outsAt0`; the invariant `PhiS`; nothing owed; an input array's share split between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := match w with
    | ⟨0, _⟩ => fullShare.left | ⟨1, _⟩ => fullShare.right | ⟨2, _⟩ => fullShare.left | ⟨3, _⟩ => fullShare.right
    | ⟨4, _⟩ => fullShare.left | ⟨5, _⟩ => fullShare.right | ⟨6, _⟩ => fullShare.left | ⟨7, _⟩ => fullShare.right
    | ⟨8, _⟩ => fullShare | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in
/-- The body at any point: the inputs' buffers hold their blocks; the position says which of the three cases the
    point is in; that case's run applies; the invariant hands over the scratch buffers at what the point before left
    and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t hc1') (noFlush0_8 t hc1')]
      rw [Dat.leavesExact_idle (dats m 0 c) 9 t (idleAt0_9 t hc1') (noFlush0_9 t hc1')]
      rw [outsAt0_A m c t h0 h1]
      unfold stepA sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
  · by_cases h1 : t.val % 8 = 7
    · have hc1' : cond0_1 (grid0.coords t) := (hcond0_1 t).mpr h1
      have hz : t.val ≠ 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t hc1'], after0_8]
      rw [show (dats m 0 c).leavesExact 9 t = owns (c : Thread nD τ) (ms0_9 t) fullShare ((dats m 0 c).after 9 t) from by
        unfold Dat.leavesExact; rw [liveAt0_9 t hc1'], after0_9]
      rw [outsAt0_C m c t h0 h1]
      unfold stepC out0_C_8 out0_C_9 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _)
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _)
    · have hc1' : ¬cond0_1 (grid0.coords t) := fun h => h1 ((hcond0_1 t).mp h)
      have hz : t.val ≠ 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t hc1') (noFlush0_8 t hc1')]
      rw [Dat.leavesExact_idle (dats m 0 c) 9 t (idleAt0_9 t hc1') (noFlush0_9 t hc1')]
      rw [outsAt0_B m c t h0 h1]
      unfold stepB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.Kernel.Main.lean ====
/-
  The frame of the pipelined program, last part: the run of @main.

  The four input arrays are each read through two windows. At the region's entry each such array, held whole, is dealt
  to its two windows in two half shares; at the exit the halves, which agree (an input array is never written), are
  joined again so that the host operations after the region find every buffer whole. The two output arrays are held
  whole by their one window.
-/
import proofs.«174178_j69131793596443_2_alg».proof.Proof.Kernel.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, listed -/

/-- The six distinct buffers behind the ten windows. -/
theorem arrBufs0_eq (c : Dev nD) (W : (b : Ref sig .tc) → Buf (Elt F) ((c : Thread nD τ).loc b)) :
    (Pipeline.arrBufs spec0 c W : sProp 𝕄)
      = iprop((((c : Thread nD τ).loc main_call0_v0) ↦{fullShare} W main_call0_v0) ∗ (((c : Thread nD τ).loc main_call0_v1) ↦{fullShare} W main_call0_v1) ∗ (((c : Thread nD τ).loc main_call0_v4) ↦{fullShare} W main_call0_v4) ∗ (((c : Thread nD τ).loc main_call0_v7) ↦{fullShare} W main_call0_v7) ∗ (((c : Thread nD τ).loc main_call0_v8_0) ↦{fullShare} W main_call0_v8_0) ∗ (((c : Thread nD τ).loc main_call0_v8_1) ↦{fullShare} W main_call0_v8_1)) :=
  bigSep_eq_bigSepL_of_eq [main_call0_v0, main_call0_v1, main_call0_v4, main_call0_v7, main_call0_v8_0, main_call0_v8_1] (by decide) (by decide) _

/-- The ten windows' holdings: an input array's two windows a half share each, an output's window the whole. -/
theorem arrays0_eq (c : Dev nD) (G : (w : Fin cfg0.W) → Buf (Elt F) ((cfg0.win w).arr.view.loc (c.tc : Thread nD τ))) :
    ((dats m 0 c).arrays G : sProp 𝕄)
      = iprop((((c : Thread nD τ).loc main_call0_v0) ↦{fullShare.left} G 0) ∗ (((c : Thread nD τ).loc main_call0_v0) ↦{fullShare.right} G 1) ∗ (((c : Thread nD τ).loc main_call0_v1) ↦{fullShare.left} G 2) ∗ (((c : Thread nD τ).loc main_call0_v1) ↦{fullShare.right} G 3) ∗ (((c : Thread nD τ).loc main_call0_v4) ↦{fullShare.left} G 4) ∗ (((c : Thread nD τ).loc main_call0_v4) ↦{fullShare.right} G 5) ∗ (((c : Thread nD τ).loc main_call0_v7) ↦{fullShare.left} G 6) ∗ (((c : Thread nD τ).loc main_call0_v7) ↦{fullShare.right} G 7) ∗ (((c : Thread nD τ).loc main_call0_v8_0) ↦{fullShare} G 8) ∗ (((c : Thread nD τ).loc main_call0_v8_1) ↦{fullShare} G 9)) := by
  have h : ((dats m 0 c).arrays G : sProp 𝕄) = bigSep Finset.univ fun w : Fin cfg0.W =>
      (((c.tc : Thread nD τ).loc (Pipeline.arrRef spec0 w)) ↦{(dats m 0 c).share w} G w : sProp 𝕄) := by
    unfold Dat.arrays
    exact bigSep_congr fun w _ => by rw [(arr_whole0 w).set_eq_univ]
  rw [h, bigSep_W0]; rfl

/-! ## Dealing the arrays to the windows and gathering them again -/

/-- Whole buffers at contents `G`, each window's the buffer's, are the windows' holdings. -/
theorem deal (c : Dev nD) (W : (b : Ref sig .tc) → Buf (Elt F) ((c : Thread nD τ).loc b))
    (G : (w : Fin cfg0.W) → Buf (Elt F) ((cfg0.win w).arr.view.loc (c.tc : Thread nD τ)))
    (hG : ∀ w, G w = W (Pipeline.arrRef spec0 w)) :
    (Pipeline.arrBufs spec0 c W : sProp 𝕄) ⊢ (dats m 0 c).arrays G := by
  rw [arrBufs0_eq, arrays0_eq, hG 0, hG 1, hG 2, hG 3, hG 4, hG 5, hG 6, hG 7, hG 8, hG 9]
  iintro ⟨H0, H1, H4, H7, H8, H9⟩
  ihave K0 := (pointsTo_share (PosShare.mem_left_op_right (fullShare : PosShare TreeShare))).1 $$ H0
  icases K0 with ⟨H0a, H0b⟩
  ihave K1 := (pointsTo_share (PosShare.mem_left_op_right (fullShare : PosShare TreeShare))).1 $$ H1
  icases K1 with ⟨H1a, H1b⟩
  ihave K4 := (pointsTo_share (PosShare.mem_left_op_right (fullShare : PosShare TreeShare))).1 $$ H4
  icases K4 with ⟨H4a, H4b⟩
  ihave K7 := (pointsTo_share (PosShare.mem_left_op_right (fullShare : PosShare TreeShare))).1 $$ H7
  icases K7 with ⟨H7a, H7b⟩
  isplitl [H0a]; · iexact H0a
  isplitl [H0b]; · iexact H0b
  isplitl [H1a]; · iexact H1a
  isplitl [H1b]; · iexact H1b
  isplitl [H4a]; · iexact H4a
  isplitl [H4b]; · iexact H4b
  isplitl [H7a]; · iexact H7a
  isplitl [H7b]; · iexact H7b
  isplitl [H8]; · iexact H8
  iexact H9

/-- And back. -/
theorem gather (c : Dev nD) (W : (b : Ref sig .tc) → Buf (Elt F) ((c : Thread nD τ).loc b))
    (G : (w : Fin cfg0.W) → Buf (Elt F) ((cfg0.win w).arr.view.loc (c.tc : Thread nD τ)))
    (hG : ∀ w, G w = W (Pipeline.arrRef spec0 w)) :
    ((dats m 0 c).arrays G : sProp 𝕄) ⊢ Pipeline.arrBufs spec0 c W := by
  rw [arrBufs0_eq, arrays0_eq, hG 0, hG 1, hG 2, hG 3, hG 4, hG 5, hG 6, hG 7, hG 8, hG 9]
  iintro ⟨H0a, H0b, H1a, H1b, H4a, H4b, H7a, H7b, H8, H9⟩
  isplitl [H0a H0b]
  · iapply (pointsTo_share (PosShare.mem_left_op_right (fullShare : PosShare TreeShare))).2; isplitl [H0a]; · iexact H0a
    iexact H0b
  isplitl [H1a H1b]
  · iapply (pointsTo_share (PosShare.mem_left_op_right (fullShare : PosShare TreeShare))).2; isplitl [H1a]; · iexact H1a
    iexact H1b
  isplitl [H4a H4b]
  · iapply (pointsTo_share (PosShare.mem_left_op_right (fullShare : PosShare TreeShare))).2; isplitl [H4a]; · iexact H4a
    iexact H4b
  isplitl [H7a H7b]
  · iapply (pointsTo_share (PosShare.mem_left_op_right (fullShare : PosShare TreeShare))).2; isplitl [H7a]; · iexact H7a
    iexact H7b
  isplitl [H8]; · iexact H8
  iexact H9

/-! ## The buffers at the region's exit -/

/-- The contents at the exit: an input array as at the entry, an output array at what the write-backs left, every
    other buffer as at the entry. -/
def VN (c : Dev nD) : Valuation τ sig (Elt F) := fun b =>
  if h8 : b = Proc.devRef .tc main_call0_v8_0 then h8 ▸ ((dats m 0 c).arrAt 8 cfg0.N : Buf (Elt F) ((c : Thread nD τ).loc main_call0_v8_0))
  else if h9 : b = Proc.devRef .tc main_call0_v8_1 then h9 ▸ ((dats m 0 c).arrAt 9 cfg0.N : Buf (Elt F) ((c : Thread nD τ).loc main_call0_v8_1))
  else V0 m c b

theorem VN_out8 (c : Dev nD) : VN m c (Proc.devRef .tc main_call0_v8_0) = (dats m 0 c).arrAt 8 cfg0.N := by
  unfold VN; rw [dif_pos rfl]
theorem VN_out9 (c : Dev nD) : VN m c (Proc.devRef .tc main_call0_v8_1) = (dats m 0 c).arrAt 9 cfg0.N := by
  unfold VN; rw [dif_neg (StableHlo.devRef_ne_of_ne (by decide)), dif_pos rfl]
theorem VN_other (c : Dev nD) (b : Ref sig .tc) (h8 : b ≠ main_call0_v8_0) (h9 : b ≠ main_call0_v8_1) :
    VN m c (Proc.devRef .tc b) = V0 m c (Proc.devRef .tc b) := by
  unfold VN; rw [dif_neg (StableHlo.devRef_ne_of_ne h8), dif_neg (StableHlo.devRef_ne_of_ne h9)]

theorem hVN (c : Dev nD) : ∀ b ∈ Pipeline.restRefs sig spec0, VN m c (Proc.devRef .tc b) = V0 m c (Proc.devRef .tc b) := by
  intro b hb
  have hne : ∀ w, Pipeline.arrRef spec0 w ≠ b := fun w e =>
    (Finset.mem_sdiff.mp hb).2 (Finset.mem_image.mpr ⟨w, Finset.mem_univ _, e⟩)
  exact VN_other m c b (fun e => hne 8 e.symm) (fun e => hne 9 e.symm)

/-- Each window's array at the exit is the exit contents of its buffer. -/
theorem arrAt_exit (c : Dev nD) : ∀ w, (dats m 0 c).arrAt w cfg0.N = VN m c (Proc.devRef .tc (Pipeline.arrRef spec0 w)) := by
  intro w
  fin_cases w
  · exact ((dats m 0 c).arrAt_in 0 rfl _).trans ((A_eq m c 0).trans (VN_other m c _ (by decide) (by decide)).symm)
  · exact ((dats m 0 c).arrAt_in 1 rfl _).trans ((A_eq m c 1).trans (VN_other m c _ (by decide) (by decide)).symm)
  · exact ((dats m 0 c).arrAt_in 2 rfl _).trans ((A_eq m c 2).trans (VN_other m c _ (by decide) (by decide)).symm)
  · exact ((dats m 0 c).arrAt_in 3 rfl _).trans ((A_eq m c 3).trans (VN_other m c _ (by decide) (by decide)).symm)
  · exact ((dats m 0 c).arrAt_in 4 rfl _).trans ((A_eq m c 4).trans (VN_other m c _ (by decide) (by decide)).symm)
  · exact ((dats m 0 c).arrAt_in 5 rfl _).trans ((A_eq m c 5).trans (VN_other m c _ (by decide) (by decide)).symm)
  · exact ((dats m 0 c).arrAt_in 6 rfl _).trans ((A_eq m c 6).trans (VN_other m c _ (by decide) (by decide)).symm)
  · exact ((dats m 0 c).arrAt_in 7 rfl _).trans ((A_eq m c 7).trans (VN_other m c _ (by decide) (by decide)).symm)
  · exact (VN_out8 m c).symm
  · exact (VN_out9 m c).symm

/-! ## The run and the frame -/

set_option backward.isDefEq.respectTransparency.types false in
/-- Every weakly fair execution of @main terminates, faulting nowhere; at the end every array of the region holds what
    the write-backs left and every other unscoped buffer what the host operations after the region compute from the
    exit contents. -/
theorem run_main : θ_run defs (onTc (τ := τ) (main (F := F))) (s₀ m ρ)
    (Pipeline.FramePost cfgs (dats m) 0 (fun c b => StableHlo.after (List.flatten [hostOps1, hostOps1_1]) (VN m c) (Proc.devRef .tc b))) :=
  Pipeline.θ_run_frame_around_track_shared cfgs (dats m) (0 : Fin 1) cellOf_inj winFacts₀0 block_pos0 arr_whole0 stage_whole0
    defs₀ Variants.none m ρ main
    (hbody := fun c => (body_obligation m c).loose) (howed := fun _ _ => rfl) (V₀ := V0 m) (opss := [hostOps1, hostOps1_1])
    (hsub := sfx_sub) (hfresh := sfx_fresh) (hkeep := sfx_keeps) (hmain := hmain m Variants.none)
    (hsplit := fun c => deal m c (fun b => V0 m c (Proc.devRef .tc b)) _ (fun w => A_eq m c w))
    (VN := VN m) (hVN := hVN m)
    (hjoin := fun c => gather m c (fun b => VN m c (Proc.devRef .tc b)) _ (arrAt_exit m c))
    (hsplitN := fun c => deal m c (fun b => VN m c (Proc.devRef .tc b)) _ (arrAt_exit m c))
    (hin := hin m) (hout := hout m)

/-- THE FRAME: @main runs to the end and both argument tables end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((tail_keeps_arg0 _).trans ((VN_other m c main_arg0 (by decide) (by decide)).trans (V_main_arg0 m c))),
     ((h c).2 main_arg1 (Pipeline.mem_restRefs_of main_arg1 (by decide) (by decide))).trans
        ((tail_keeps_arg1 _).trans ((VN_other m c main_arg1 (by decide) (by decide)).trans (V_main_arg1 m c)))⟩)
    (run_main m ρ)

end Cert.Kernel.Hand

end
-- ==== Proof.KernelIdeal.Setup.lean ====
/-
  The frame of the pipelined program, first part: @main around its one region, the windows' blocks, the body's two
  branch conditions decided over the 8 x 8 grid, and where the two output windows are idle.

  The region has ten windows. Windows 0 and 1 read one array (the first table in half precision), at row block i and
  at row block j of the grid point (i, j); windows 2 and 3 likewise the second table; windows 4, 5 and 6, 7 the two
  columns of squared row norms. Windows 8 and 9 are the outputs, one entry per row block i, stored only at j = 7.
  Two one-entry scratch buffers carry the running sums from one point to the next: zeroed at j = 0, added to at
  every point, copied to the outputs at j = 7.
-/
import proofs.«174178_j69131793596443_2_alg».proof.Proof.Gen.KernelIdeal.Launch
import proofs.«174178_j69131793596443_2_alg».proof.Proof.Gen.KernelIdeal.Skeleton
import proofs.«174178_j69131793596443_2_alg».proof.Proof.Gen.KernelIdeal.Points
import proofs.«174178_j69131793596443_2_alg».proof.Proof.LibFrameSharedAround
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the ten host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the host operations before the region, the region, and the two stretches of host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The operations after the region touch only unscoped buffers. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And each writes only its own result, which is no array of the region. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does an operation after it. -/
theorem tail_keeps_arg0 (W : Valuation τ sig (Elt F)) :
    StableHlo.after (List.flatten [hostOps1, hostOps1_1]) W (Proc.devRef .tc main_arg0) = W (Proc.devRef .tc main_arg0) :=
  StableHlo.after_of_forall_not_mem (b := Proc.devRef .tc main_arg0) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_arg1 (W : Valuation τ sig (Elt F)) :
    StableHlo.after (List.flatten [hostOps1, hostOps1_1]) W (Proc.devRef .tc main_arg1) = W (Proc.devRef .tc main_arg1) :=
  StableHlo.after_of_forall_not_mem (b := Proc.devRef .tc main_arg1) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "The point is the first of its row block": `j = 0`, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The point is the last of its row block": `j = 7`. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The memrefs the body is called with -/

abbrev VO0_8 : View sig .tc .vmem S1x1x1 .f32 := (Memref.whole cc0_stg8_0 : Memref sig .tc .vmem S1x1x1 .f32).view
abbrev VO0_9 : View sig .tc .vmem S1x1x1 .f32 := (Memref.whole cc0_stg9_0 : Memref sig .tc .vmem S1x1x1 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1 .f32 := win0_9.stage (cfg0.slots t 9)
abbrev hs0_9 (t : Fin cfg0.N) : (ms0_9 t).IsWhole := hstage0_9 ((cfg0.slots t 9).cast nbuf0_9)
/-- The two scratch operands. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- What the region's invariant holds before the first point: the two scratch buffers at anything and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.RunA.lean ====
/-
  The kernel body run at the first point of a row block (j = 0): both scratch buffers are zeroed, then added to; the outputs are left as found.
  The run finds, as lists of stored pieces, what each scratch buffer ends with.
-/
import proofs.«174178_j69131793596443_2_alg».proof.Proof.KernelIdeal.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on whole staging memrefs holding the inputs' blocks `x0 … x7`: it runs to the end, hands every input back as found, and leaves the pieces it stored. -/
noncomputable def kernelRun0_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) :
    Σ' (L8 : List (View.Piece (Elt F) S1x1x1 .f32)) (L9 : List (View.Piece (Elt F) S1x1x1 .f32)) (LS0 : List (View.Piece (Elt F) S1x1 .f32)), { LS1 : List (View.Piece (Elt F) S1x1 .f32) //
      ∀ (xi8 xi9 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__combo_kernel i arg2 harg2 arg3 harg3 arg4 harg4 arg5 harg5 arg6 harg6 arg7 harg7 arg8 harg8 arg9 harg9 arg10 harg10 arg11 harg11 arg12 harg12 arg13 harg13) K } := by
  refine ⟨[], [], ?_, ?_, fun xi8 xi9 E K => ?run⟩
  case run =>
    simp only [cc0__combo_kernel_eq_skeleton]; unfold cc0__combo_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexists _; iexact HS1

end Cert.KernelIdeal.Hand

end
-- ==== Proof.KernelIdeal.RunB.lean ====
/-
  The kernel body run at a middle point of a row block (0 < j < 7): both scratch buffers are added to; the outputs are left as found.
  The run finds, as lists of stored pieces, what each scratch buffer ends with.
-/
import proofs.«174178_j69131793596443_2_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on whole staging memrefs holding the inputs' blocks `x0 … x7`, the scratch buffers at what the point before left (`xs0`, `xs1`): it runs to the end, hands every input back as found, and leaves the pieces it stored. -/
noncomputable def kernelRun0_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    Σ' (L8 : List (View.Piece (Elt F) S1x1x1 .f32)) (L9 : List (View.Piece (Elt F) S1x1x1 .f32)) (LS0 : List (View.Piece (Elt F) S1x1 .f32)), { LS1 : List (View.Piece (Elt F) S1x1 .f32) //
      ∀ (xi8 xi9 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__combo_kernel i arg2 harg2 arg3 harg3 arg4 harg4 arg5 harg5 arg6 harg6 arg7 harg7 arg8 harg8 arg9 harg9 arg10 harg10 arg11 harg11 arg12 harg12 arg13 harg13) K } := by
  refine ⟨[], [], ?_, ?_, fun xi8 xi9 E K => ?run⟩
  case run =>
    simp only [cc0__combo_kernel_eq_skeleton]; unfold cc0__combo_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexists _; iexact HS1

end Cert.KernelIdeal.Hand

end
-- ==== Proof.KernelIdeal.RunC.lean ====
/-
  The kernel body run at the last point of a row block (j = 7): both scratch buffers are added to, then copied to the outputs.
  The run finds, as lists of stored pieces, what each scratch buffer and each output buffer ends with.
-/
import proofs.«174178_j69131793596443_2_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at such a point, on whole staging memrefs holding the inputs' blocks `x0 … x7`, the scratch buffers at what the point before left (`xs0`, `xs1`): it runs to the end, hands every input back as found, and leaves the pieces it stored. -/
noncomputable def kernelRun0_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    Σ' (L8 : List (View.Piece (Elt F) S1x1x1 .f32)) (L9 : List (View.Piece (Elt F) S1x1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__combo_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__combo_kernel_eq_skeleton]; unfold cc0__combo_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    iexists _; iexact HS1

end Cert.KernelIdeal.Hand

end
-- ==== Proof.KernelIdeal.Frame.lean ====
/-
  The frame of the pipelined program, second part: what the two outputs and the two scratch buffers hold after each
  grid point, the region's invariant carrying the scratch buffers from point to point, the body's obligation at every
  point, and the run of @main: it terminates, faults nowhere and leaves both argument tables as launched.

  Each of the four input arrays is read through two windows; the region holds such an array in two half shares, one per
  window, dealt at its entry and joined again at its exit (the arrays are only read, so both halves agree).
-/
import proofs.«174178_j69131793596443_2_alg».proof.Proof.KernelIdeal.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The first points of a row block -/

/-- What the case leaves in output 8's staging buffer (nothing is stored: a placeholder nothing consults). -/
def out0_A_8 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) : Vec F S1x1x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1)
/-- The same for output 9. -/
def out0_A_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) : Vec F S1x1x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1)

/-- The pieces stored into the first scratch buffer cover it. -/
theorem scover0_A_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 S1x1.size (by sl_kernel_rfl) y
/-- What the case leaves in the first scratch buffer. -/
def sout0_A_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1)
/-- The pieces stored into the second scratch buffer cover it. -/
theorem scover0_A_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.1 S1x1.size (by sl_kernel_rfl) y
/-- What the case leaves in the second scratch buffer. -/
def sout0_A_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.1)

/-! ### The middle points of a row block -/

/-- What the case leaves in output 8's staging buffer (nothing is stored: a placeholder nothing consults). -/
def out0_B_8 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)
/-- The same for output 9. -/
def out0_B_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

/-- The pieces stored into the first scratch buffer cover it. -/
theorem scover0_B_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x1.size (by sl_kernel_rfl) y
/-- What the case leaves in the first scratch buffer. -/
def sout0_B_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)
/-- The pieces stored into the second scratch buffer cover it. -/
theorem scover0_B_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S1x1.size (by sl_kernel_rfl) y
/-- What the case leaves in the second scratch buffer. -/
def sout0_B_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1)

/-! ### The last points of a row block -/

theorem cover0_C_8 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 S1x1x1.size (by sl_kernel_rfl) y
theorem cover0_C_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 S1x1x1.size (by sl_kernel_rfl) y
/-- What the case leaves in output 8's staging buffer. -/
def out0_C_8 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1)
/-- The same for output 9. -/
def out0_C_9 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1x1 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1)

/-- The pieces stored into the first scratch buffer cover it. -/
theorem scover0_C_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 S1x1.size (by sl_kernel_rfl) y
/-- What the case leaves in the first scratch buffer. -/
def sout0_C_0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1)
/-- The pieces stored into the second scratch buffer cover it. -/
theorem scover0_C_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 S1x1.size (by sl_kernel_rfl) y
/-- What the case leaves in the second scratch buffer. -/
def sout0_C_1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1)

/-! ## What the buffers hold after each point -/

/-- The two outputs' staging buffers and the two scratch buffers. -/
abbrev Outs (F : FTy → Type) [FloatOps F] : Type := Vec F S1x1x1 .f32 × Vec F S1x1x1 .f32 × Vec F S1x1 .f32 × Vec F S1x1 .f32

/-- After a first point of a row block. -/
def stepA (c : Dev nD) (t : Fin cfg0.N) (h0 : t.val % 8 = 0) (h1 : ¬t.val % 8 = 7) : Outs F :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t))
/-- After a middle point, from what the point before left in the scratch buffers. -/
def stepB (c : Dev nD) (t : Fin cfg0.N) (h0 : ¬t.val % 8 = 0) (h1 : ¬t.val % 8 = 7) (xs0 xs1 : Vec F S1x1 .f32) : Outs F :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0 xs1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0 xs1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0 xs1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0 xs1)
/-- After a last point, likewise. -/
def stepC (c : Dev nD) (t : Fin cfg0.N) (h0 : ¬t.val % 8 = 0) (h1 : t.val % 8 = 7) (xs0 xs1 : Vec F S1x1 .f32) : Outs F :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0 xs1, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0 xs1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0 xs1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0 xs1)

/-- THE ACCUMULATION: what the four buffers hold after the body at position `n`, by recursion on the position. -/
def outsAt0 (c : Dev nD) : (n : ℕ) → n < cfg0.N → Outs F
  | 0, hn => stepA m c ⟨0, hn⟩ (Nat.zero_mod _) (by show ¬(0 % 8 = 7); decide)
  | n + 1, hn =>
    if h0 : (n + 1) % 8 = 0 then
      if h1 : (n + 1) % 8 = 7 then False.elim (by omega)
      else stepA m c ⟨n + 1, hn⟩ h0 h1
    else
      if h1 : (n + 1) % 8 = 7 then stepC m c ⟨n + 1, hn⟩ h0 h1 (outsAt0 c n (Nat.lt_of_succ_lt hn)).2.2.1 (outsAt0 c n (Nat.lt_of_succ_lt hn)).2.2.2
      else stepB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 8 = 0) (h1 : ¬t.val % 8 = 7) :
    outsAt0 m c t.val t.isLt = stepA m c t h0 h1 := by
  obtain ⟨n, hn⟩ := t
  cases n with
  | zero => rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both scratch buffers at anything; afterwards
    each at what the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body each input's buffer at its block,
    the outputs' at `outsAt0`; the invariant `PhiS`; nothing owed; an input array's share split between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := match w with
    | ⟨0, _⟩ => fullShare.left | ⟨1, _⟩ => fullShare.right | ⟨2, _⟩ => fullShare.left | ⟨3, _⟩ => fullShare.right
    | ⟨4, _⟩ => fullShare.left | ⟨5, _⟩ => fullShare.right | ⟨6, _⟩ => fullShare.left | ⟨7, _⟩ => fullShare.right
    | ⟨8, _⟩ => fullShare | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in
/-- The body at any point: the inputs' buffers hold their blocks; the position says which of the three cases the
    point is in; that case's run applies; the invariant hands over the scratch buffers at what the point before left
    and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t hc1') (noFlush0_8 t hc1')]
      rw [Dat.leavesExact_idle (dats m 0 c) 9 t (idleAt0_9 t hc1') (noFlush0_9 t hc1')]
      rw [outsAt0_A m c t h0 h1]
      unfold stepA sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        iintro ⟨H0, H1, H2, H3, H4, H5, H6, H7, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
  · by_cases h1 : t.val % 8 = 7
    · have hc1' : cond0_1 (grid0.coords t) := (hcond0_1 t).mpr h1
      have hz : t.val ≠ 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t hc1'], after0_8]
      rw [show (dats m 0 c).leavesExact 9 t = owns (c : Thread nD τ) (ms0_9 t) fullShare ((dats m 0 c).after 9 t) from by
        unfold Dat.leavesExact; rw [liveAt0_9 t hc1'], after0_9]
      rw [outsAt0_C m c t h0 h1]
      unfold stepC out0_C_8 out0_C_9 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _)
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _)
    · have hc1' : ¬cond0_1 (grid0.coords t) := fun h => h1 ((hcond0_1 t).mp h)
      have hz : t.val ≠ 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t hc1') (noFlush0_8 t hc1')]
      rw [Dat.leavesExact_idle (dats m 0 c) 9 t (idleAt0_9 t hc1') (noFlush0_9 t hc1')]
      rw [outsAt0_B m c t h0 h1]
      unfold stepB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KernelIdeal.Main.lean ====
/-
  The frame of the pipelined program, last part: the run of @main.

  The four input arrays are each read through two windows. At the region's entry each such array, held whole, is dealt
  to its two windows in two half shares; at the exit the halves, which agree (an input array is never written), are
  joined again so that the host operations after the region find every buffer whole. The two output arrays are held
  whole by their one window.
-/
import proofs.«174178_j69131793596443_2_alg».proof.Proof.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, listed -/

/-- The six distinct buffers behind the ten windows. -/
theorem arrBufs0_eq (c : Dev nD) (W : (b : Ref sig .tc) → Buf (Elt F) ((c : Thread nD τ).loc b)) :
    (Pipeline.arrBufs spec0 c W : sProp 𝕄)
      = iprop((((c : Thread nD τ).loc main_call0_v0) ↦{fullShare} W main_call0_v0) ∗ (((c : Thread nD τ).loc main_call0_v1) ↦{fullShare} W main_call0_v1) ∗ (((c : Thread nD τ).loc main_call0_v4) ↦{fullShare} W main_call0_v4) ∗ (((c : Thread nD τ).loc main_call0_v7) ↦{fullShare} W main_call0_v7) ∗ (((c : Thread nD τ).loc main_call0_v8_0) ↦{fullShare} W main_call0_v8_0) ∗ (((c : Thread nD τ).loc main_call0_v8_1) ↦{fullShare} W main_call0_v8_1)) :=
  bigSep_eq_bigSepL_of_eq [main_call0_v0, main_call0_v1, main_call0_v4, main_call0_v7, main_call0_v8_0, main_call0_v8_1] (by decide) (by decide) _

/-- The ten windows' holdings: an input array's two windows a half share each, an output's window the whole. -/
theorem arrays0_eq (c : Dev nD) (G : (w : Fin cfg0.W) → Buf (Elt F) ((cfg0.win w).arr.view.loc (c.tc : Thread nD τ))) :
    ((dats m 0 c).arrays G : sProp 𝕄)
      = iprop((((c : Thread nD τ).loc main_call0_v0) ↦{fullShare.left} G 0) ∗ (((c : Thread nD τ).loc main_call0_v0) ↦{fullShare.right} G 1) ∗ (((c : Thread nD τ).loc main_call0_v1) ↦{fullShare.left} G 2) ∗ (((c : Thread nD τ).loc main_call0_v1) ↦{fullShare.right} G 3) ∗ (((c : Thread nD τ).loc main_call0_v4) ↦{fullShare.left} G 4) ∗ (((c : Thread nD τ).loc main_call0_v4) ↦{fullShare.right} G 5) ∗ (((c : Thread nD τ).loc main_call0_v7) ↦{fullShare.left} G 6) ∗ (((c : Thread nD τ).loc main_call0_v7) ↦{fullShare.right} G 7) ∗ (((c : Thread nD τ).loc main_call0_v8_0) ↦{fullShare} G 8) ∗ (((c : Thread nD τ).loc main_call0_v8_1) ↦{fullShare} G 9)) := by
  have h : ((dats m 0 c).arrays G : sProp 𝕄) = bigSep Finset.univ fun w : Fin cfg0.W =>
      (((c.tc : Thread nD τ).loc (Pipeline.arrRef spec0 w)) ↦{(dats m 0 c).share w} G w : sProp 𝕄) := by
    unfold Dat.arrays
    exact bigSep_congr fun w _ => by rw [(arr_whole0 w).set_eq_univ]
  rw [h, bigSep_W0]; rfl

/-! ## Dealing the arrays to the windows and gathering them again -/

/-- Whole buffers at contents `G`, each window's the buffer's, are the windows' holdings. -/
theorem deal (c : Dev nD) (W : (b : Ref sig .tc) → Buf (Elt F) ((c : Thread nD τ).loc b))
    (G : (w : Fin cfg0.W) → Buf (Elt F) ((cfg0.win w).arr.view.loc (c.tc : Thread nD τ)))
    (hG : ∀ w, G w = W (Pipeline.arrRef spec0 w)) :
    (Pipeline.arrBufs spec0 c W : sProp 𝕄) ⊢ (dats m 0 c).arrays G := by
  rw [arrBufs0_eq, arrays0_eq, hG 0, hG 1, hG 2, hG 3, hG 4, hG 5, hG 6, hG 7, hG 8, hG 9]
  iintro ⟨H0, H1, H4, H7, H8, H9⟩
  ihave K0 := (pointsTo_share (PosShare.mem_left_op_right (fullShare : PosShare TreeShare))).1 $$ H0
  icases K0 with ⟨H0a, H0b⟩
  ihave K1 := (pointsTo_share (PosShare.mem_left_op_right (fullShare : PosShare TreeShare))).1 $$ H1
  icases K1 with ⟨H1a, H1b⟩
  ihave K4 := (pointsTo_share (PosShare.mem_left_op_right (fullShare : PosShare TreeShare))).1 $$ H4
  icases K4 with ⟨H4a, H4b⟩
  ihave K7 := (pointsTo_share (PosShare.mem_left_op_right (fullShare : PosShare TreeShare))).1 $$ H7
  icases K7 with ⟨H7a, H7b⟩
  isplitl [H0a]; · iexact H0a
  isplitl [H0b]; · iexact H0b
  isplitl [H1a]; · iexact H1a
  isplitl [H1b]; · iexact H1b
  isplitl [H4a]; · iexact H4a
  isplitl [H4b]; · iexact H4b
  isplitl [H7a]; · iexact H7a
  isplitl [H7b]; · iexact H7b
  isplitl [H8]; · iexact H8
  iexact H9

/-- And back. -/
theorem gather (c : Dev nD) (W : (b : Ref sig .tc) → Buf (Elt F) ((c : Thread nD τ).loc b))
    (G : (w : Fin cfg0.W) → Buf (Elt F) ((cfg0.win w).arr.view.loc (c.tc : Thread nD τ)))
    (hG : ∀ w, G w = W (Pipeline.arrRef spec0 w)) :
    ((dats m 0 c).arrays G : sProp 𝕄) ⊢ Pipeline.arrBufs spec0 c W := by
  rw [arrBufs0_eq, arrays0_eq, hG 0, hG 1, hG 2, hG 3, hG 4, hG 5, hG 6, hG 7, hG 8, hG 9]
  iintro ⟨H0a, H0b, H1a, H1b, H4a, H4b, H7a, H7b, H8, H9⟩
  isplitl [H0a H0b]
  · iapply (pointsTo_share (PosShare.mem_left_op_right (fullShare : PosShare TreeShare))).2; isplitl [H0a]; · iexact H0a
    iexact H0b
  isplitl [H1a H1b]
  · iapply (pointsTo_share (PosShare.mem_left_op_right (fullShare : PosShare TreeShare))).2; isplitl [H1a]; · iexact H1a
    iexact H1b
  isplitl [H4a H4b]
  · iapply (pointsTo_share (PosShare.mem_left_op_right (fullShare : PosShare TreeShare))).2; isplitl [H4a]; · iexact H4a
    iexact H4b
  isplitl [H7a H7b]
  · iapply (pointsTo_share (PosShare.mem_left_op_right (fullShare : PosShare TreeShare))).2; isplitl [H7a]; · iexact H7a
    iexact H7b
  isplitl [H8]; · iexact H8
  iexact H9

/-! ## The buffers at the region's exit -/

/-- The contents at the exit: an input array as at the entry, an output array at what the write-backs left, every
    other buffer as at the entry. -/
def VN (c : Dev nD) : Valuation τ sig (Elt F) := fun b =>
  if h8 : b = Proc.devRef .tc main_call0_v8_0 then h8 ▸ ((dats m 0 c).arrAt 8 cfg0.N : Buf (Elt F) ((c : Thread nD τ).loc main_call0_v8_0))
  else if h9 : b = Proc.devRef .tc main_call0_v8_1 then h9 ▸ ((dats m 0 c).arrAt 9 cfg0.N : Buf (Elt F) ((c : Thread nD τ).loc main_call0_v8_1))
  else V0 m c b

theorem VN_out8 (c : Dev nD) : VN m c (Proc.devRef .tc main_call0_v8_0) = (dats m 0 c).arrAt 8 cfg0.N := by
  unfold VN; rw [dif_pos rfl]
theorem VN_out9 (c : Dev nD) : VN m c (Proc.devRef .tc main_call0_v8_1) = (dats m 0 c).arrAt 9 cfg0.N := by
  unfold VN; rw [dif_neg (StableHlo.devRef_ne_of_ne (by decide)), dif_pos rfl]
theorem VN_other (c : Dev nD) (b : Ref sig .tc) (h8 : b ≠ main_call0_v8_0) (h9 : b ≠ main_call0_v8_1) :
    VN m c (Proc.devRef .tc b) = V0 m c (Proc.devRef .tc b) := by
  unfold VN; rw [dif_neg (StableHlo.devRef_ne_of_ne h8), dif_neg (StableHlo.devRef_ne_of_ne h9)]

theorem hVN (c : Dev nD) : ∀ b ∈ Pipeline.restRefs sig spec0, VN m c (Proc.devRef .tc b) = V0 m c (Proc.devRef .tc b) := by
  intro b hb
  have hne : ∀ w, Pipeline.arrRef spec0 w ≠ b := fun w e =>
    (Finset.mem_sdiff.mp hb).2 (Finset.mem_image.mpr ⟨w, Finset.mem_univ _, e⟩)
  exact VN_other m c b (fun e => hne 8 e.symm) (fun e => hne 9 e.symm)

/-- Each window's array at the exit is the exit contents of its buffer. -/
theorem arrAt_exit (c : Dev nD) : ∀ w, (dats m 0 c).arrAt w cfg0.N = VN m c (Proc.devRef .tc (Pipeline.arrRef spec0 w)) := by
  intro w
  fin_cases w
  · exact ((dats m 0 c).arrAt_in 0 rfl _).trans ((A_eq m c 0).trans (VN_other m c _ (by decide) (by decide)).symm)
  · exact ((dats m 0 c).arrAt_in 1 rfl _).trans ((A_eq m c 1).trans (VN_other m c _ (by decide) (by decide)).symm)
  · exact ((dats m 0 c).arrAt_in 2 rfl _).trans ((A_eq m c 2).trans (VN_other m c _ (by decide) (by decide)).symm)
  · exact ((dats m 0 c).arrAt_in 3 rfl _).trans ((A_eq m c 3).trans (VN_other m c _ (by decide) (by decide)).symm)
  · exact ((dats m 0 c).arrAt_in 4 rfl _).trans ((A_eq m c 4).trans (VN_other m c _ (by decide) (by decide)).symm)
  · exact ((dats m 0 c).arrAt_in 5 rfl _).trans ((A_eq m c 5).trans (VN_other m c _ (by decide) (by decide)).symm)
  · exact ((dats m 0 c).arrAt_in 6 rfl _).trans ((A_eq m c 6).trans (VN_other m c _ (by decide) (by decide)).symm)
  · exact ((dats m 0 c).arrAt_in 7 rfl _).trans ((A_eq m c 7).trans (VN_other m c _ (by decide) (by decide)).symm)
  · exact (VN_out8 m c).symm
  · exact (VN_out9 m c).symm

/-! ## The run and the frame -/

set_option backward.isDefEq.respectTransparency.types false in
/-- Every weakly fair execution of @main terminates, faulting nowhere; at the end every array of the region holds what
    the write-backs left and every other unscoped buffer what the host operations after the region compute from the
    exit contents. -/
theorem run_main : θ_run defs (onTc (τ := τ) (main (F := F))) (s₀ m ρ)
    (Pipeline.FramePost cfgs (dats m) 0 (fun c b => StableHlo.after (List.flatten [hostOps1, hostOps1_1]) (VN m c) (Proc.devRef .tc b))) :=
  Pipeline.θ_run_frame_around_track_shared cfgs (dats m) (0 : Fin 1) cellOf_inj winFacts₀0 block_pos0 arr_whole0 stage_whole0
    defs₀ Variants.none m ρ main
    (hbody := fun c => (body_obligation m c).loose) (howed := fun _ _ => rfl) (V₀ := V0 m) (opss := [hostOps1, hostOps1_1])
    (hsub := sfx_sub) (hfresh := sfx_fresh) (hkeep := sfx_keeps) (hmain := hmain m Variants.none)
    (hsplit := fun c => deal m c (fun b => V0 m c (Proc.devRef .tc b)) _ (fun w => A_eq m c w))
    (VN := VN m) (hVN := hVN m)
    (hjoin := fun c => gather m c (fun b => VN m c (Proc.devRef .tc b)) _ (arrAt_exit m c))
    (hsplitN := fun c => deal m c (fun b => VN m c (Proc.devRef .tc b)) _ (arrAt_exit m c))
    (hin := hin m) (hout := hout m)

/-- THE FRAME: @main runs to the end and both argument tables end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((tail_keeps_arg0 _).trans ((VN_other m c main_arg0 (by decide) (by decide)).trans (V_main_arg0 m c))),
     ((h c).2 main_arg1 (Pipeline.mem_restRefs_of main_arg1 (by decide) (by decide))).trans
        ((tail_keeps_arg1 _).trans ((VN_other m c main_arg1 (by decide) (by decide)).trans (V_main_arg1 m c)))⟩)
    (run_main m ρ)

end Cert.KernelIdeal.Hand

end
-- ==== Proof.KernelIdeal.Pieces.lean ====
/-
  What the body's run leaves in the two scratch buffers and the two outputs, as terms over the blocks it loads.

  Every buffer here has one entry and every store covers it, so a buffer ends at its last store's value. That value
  is a function of the eight input blocks the point loads and of what the scratch buffer held before: at the first
  point of a row block the zero just stored there, read back; at every other point the contents found. At the last
  point of a row block each output's entry is its scratch buffer's final value, read back and reshaped.
-/
import proofs.«174178_j69131793596443_2_alg».proof.Proof.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle are the constant zero. -/
theorem zeroOff2 : (![0, 0] : Fin 2 → Nat) = fun _ => 0 := funext fun a => by fin_cases a <;> rfl
/-- The zero offsets of a rank-3 rectangle are the constant zero. -/
theorem zeroOff3 : (![0, 0, 0] : Fin 3 → Nat) = fun _ => 0 := funext fun a => by fin_cases a <;> rfl

/-! ## The first point of a row block -/

/-- At the first point of a row block the first scratch buffer is set to zero and then to that zero plus the tile's sum of squared deviations: it ends at the second store's term over the zero. -/
theorem sout0_A_0_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i) (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay1 (k0_pay18 (BitVec.ofNat 32 (i 0).val) (BitVec.ofNat 32 (i 1).val) (k0_pay13 x0 x3) k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S1x1) zeroOff2, View.readCov_unit_zero (S := S1x1) _ zeroOff2]
  simp only [View.readAt_eq_ld, harg2.read_unread, harg5.read_unread,
    View.ld_unit_zero (S := S512x512) zeroOff2]

/-- At the first point of a row block the second scratch buffer is set to zero and then to that zero plus the tile's three kernel sums combined: it ends at the second store's term over the zero. -/
theorem sout0_A_1_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i) (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay2 (k0_pay15 (k0_pay14 x0 x1 x4 x5)) (k0_pay16 (k0_pay10 x6) (k0_pay11 x7) (k0_pay12 x2 x3)) (k0_pay17 (k0_pay9 x4) (k0_pay11 x7) (k0_pay13 x0 x3)) k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S1x1) zeroOff2, View.readCov_unit_zero (S := S1x1) _ zeroOff2]
  simp only [View.readAt_eq_ld, harg2.read_unread, harg3.read_unread, harg4.read_unread, harg5.read_unread,
    harg6.read_unread, harg7.read_unread, harg8.read_unread, harg9.read_unread,
    View.ld_unit_zero (S := S512x512) zeroOff2, View.ld_unit_zero (S := S512x1) zeroOff2]

/-! ## The middle points of a row block -/

/-- At a middle point of a row block the first scratch buffer ends at what it held plus the tile's sum of squared deviations: its one store's term over the contents found. -/
theorem sout0_B_0_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i) (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay1 (k0_pay18 (BitVec.ofNat 32 (i 0).val) (BitVec.ofNat 32 (i 1).val) (k0_pay13 x0 x3) xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero (S := S1x1) zeroOff2]
  simp only [View.readAt_eq_ld, harg2.read_unread, harg5.read_unread, harg12.read_unread,
    View.ld_unit_zero (S := S512x512) zeroOff2, View.ld_unit_zero (S := S1x1) zeroOff2]

/-- At a middle point of a row block the second scratch buffer ends at what it held plus the tile's three kernel sums combined: its one store's term over the contents found. -/
theorem sout0_B_1_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i) (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay2 (k0_pay15 (k0_pay14 x0 x1 x4 x5)) (k0_pay16 (k0_pay10 x6) (k0_pay11 x7) (k0_pay12 x2 x3)) (k0_pay17 (k0_pay9 x4) (k0_pay11 x7) (k0_pay13 x0 x3)) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero (S := S1x1) zeroOff2]
  simp only [View.readAt_eq_ld, harg2.read_unread, harg3.read_unread, harg4.read_unread, harg5.read_unread,
    harg6.read_unread, harg7.read_unread, harg8.read_unread, harg9.read_unread, harg13.read_unread,
    View.ld_unit_zero (S := S512x512) zeroOff2, View.ld_unit_zero (S := S512x1) zeroOff2, View.ld_unit_zero (S := S1x1) zeroOff2]

/-! ## The last point of a row block -/

/-- At the last point of a row block the first scratch buffer ends as at a middle point. -/
theorem sout0_C_0_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i) (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay1 (k0_pay18 (BitVec.ofNat 32 (i 0).val) (BitVec.ofNat 32 (i 1).val) (k0_pay13 x0 x3) xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero (S := S1x1) zeroOff2]
  simp only [View.readAt_eq_ld, harg2.read_unread, harg5.read_unread, harg12.read_unread,
    View.ld_unit_zero (S := S512x512) zeroOff2, View.ld_unit_zero (S := S1x1) zeroOff2]

/-- At the last point of a row block the second scratch buffer ends as at a middle point. -/
theorem sout0_C_1_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i) (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay2 (k0_pay15 (k0_pay14 x0 x1 x4 x5)) (k0_pay16 (k0_pay10 x6) (k0_pay11 x7) (k0_pay12 x2 x3)) (k0_pay17 (k0_pay9 x4) (k0_pay11 x7) (k0_pay13 x0 x3)) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero (S := S1x1) zeroOff2]
  simp only [View.readAt_eq_ld, harg2.read_unread, harg3.read_unread, harg4.read_unread, harg5.read_unread,
    harg6.read_unread, harg7.read_unread, harg8.read_unread, harg9.read_unread, harg13.read_unread,
    View.ld_unit_zero (S := S512x512) zeroOff2, View.ld_unit_zero (S := S512x1) zeroOff2, View.ld_unit_zero (S := S1x1) zeroOff2]

/-- At the last point of a row block the first output's entry is the first scratch buffer's final contents, reshaped: the copy reads back what the point's own store left. -/
theorem out0_C_8_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i) (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay3 (k0_pay1 (k0_pay18 (BitVec.ofNat 32 (i 0).val) (BitVec.ofNat 32 (i 1).val) (k0_pay13 x0 x3) xs0)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero (S := S1x1x1) zeroOff3, View.readCov_unit_zero (S := S1x1) _ zeroOff2]
  simp only [View.readAt_eq_ld, harg2.read_unread, harg5.read_unread, harg12.read_unread,
    View.ld_unit_zero (S := S512x512) zeroOff2, View.ld_unit_zero (S := S1x1) zeroOff2]

/-- At the last point of a row block the second output's entry is the second scratch buffer's final contents, reshaped. -/
theorem out0_C_9_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i) (x0 : Vec F S512x512 .bf16) (x1 : Vec F S512x512 .bf16) (x2 : Vec F S512x512 .bf16) (x3 : Vec F S512x512 .bf16) (x4 : Vec F S512x1 .f32) (x5 : Vec F S512x1 .f32) (x6 : Vec F S512x1 .f32) (x7 : Vec F S512x1 .f32) (xs0 : Vec F S1x1 .f32) (xs1 : Vec F S1x1 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay4 (k0_pay2 (k0_pay15 (k0_pay14 x0 x1 x4 x5)) (k0_pay16 (k0_pay10 x6) (k0_pay11 x7) (k0_pay12 x2 x3)) (k0_pay17 (k0_pay9 x4) (k0_pay11 x7) (k0_pay13 x0 x3)) xs1) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero (S := S1x1x1) zeroOff3, View.readCov_unit_zero (S := S1x1) _ zeroOff2]
  simp only [View.readAt_eq_ld, harg2.read_unread, harg3.read_unread, harg4.read_unread, harg5.read_unread,
    harg6.read_unread, harg7.read_unread, harg8.read_unread, harg9.read_unread, harg13.read_unread,
    View.ld_unit_zero (S := S512x512) zeroOff2, View.ld_unit_zero (S := S512x1) zeroOff2, View.ld_unit_zero (S := S1x1) zeroOff2]

end Cert.KernelIdeal.Hand

end
-- ==== Proof.Spec.lean ====
/-
  The quantity both programs compute, over the reals.

  For two tables x, y of 4096 rows of 512 reals:
    g(a, b) r c   = sum over k of a r k * b c k                  (the Gram entry of rows r of a and c of b)
    n(a) r        = sum over k of a r k * a r k                  (the squared norm of row r)
    d2(a, b) r c  = max (n a r + n b c - 2 * g a b r c) 0        (the clamped squared distance of the two rows)
    gauss a b r c = exp (-(d2 a b r c))                          (the Gaussian kernel of the two rows)
    orth x y r c  = (g x y r c - [r = c])^2                      (the squared deviation of the Gram matrix from the identity)
  and the result is
    (sum orth x y + (sum gauss x x + sum gauss y y - 2 * sum gauss x y)) / 4096^2,
  every sum over all 4096 * 4096 pairs of rows. Over the reals the order and grouping of the sums and where the
  division by 4096^2 = 2^24 sits make no difference; over the extended reals they agree once every term is a real.
-/
import Idealize.ShloMosaic.Lib.ValueIdx

noncomputable section

open scoped BigOperators

namespace Cert.Combo

/-- A table of 4096 rows of 512 reals. -/
abbrev Mat : Type := Fin 4096 → Fin 512 → ℝ

/-- The Gram entry of row `r` of `a` and row `c` of `b`. -/
def dotR (a b : Mat) (r c : Fin 4096) : ℝ := ∑ k : Fin 512, a r k * b c k

/-- The squared norm of row `r`. -/
def nrmR (a : Mat) (r : Fin 4096) : ℝ := ∑ k : Fin 512, a r k * a r k

/-- The squared distance of row `r` of `a` and row `c` of `b` by norms and the Gram entry, clamped at zero. -/
def d2R (a b : Mat) (r c : Fin 4096) : ℝ := max (nrmR a r + nrmR b c - 2 * dotR a b r c) 0

/-- The Gaussian kernel of the two rows. -/
def gaussR (a b : Mat) (r c : Fin 4096) : ℝ := Real.exp (-(d2R a b r c))

/-- The identity matrix's entry. -/
def eyeR (r c : Fin 4096) : ℝ := if r = c then 1 else 0

/-- The squared deviation of the Gram matrix of `x` and `y` from the identity, at `(r, c)`. -/
def orthR (x y : Mat) (r c : Fin 4096) : ℝ := (dotR x y r c - eyeR r c) * (dotR x y r c - eyeR r c)

/-- The sum of a function of two row numbers over all pairs. -/
def sumAll (f : Fin 4096 → Fin 4096 → ℝ) : ℝ := ∑ r : Fin 4096, ∑ c : Fin 4096, f r c

/-- The result: the summed squared deviation plus the summed kernels `xx + yy - 2 xy`, over `4096^2`. -/
def total (x y : Mat) : ℝ :=
  (sumAll (orthR x y) + (sumAll (gaussR x x) + sumAll (gaussR y y) - 2 * sumAll (gaussR x y))) / 16777216

/-- A real table as an array of extended reals, indexed as the programs index their `[4096, 512]` arguments. -/
def toArr (a : Mat) : (⟨2, ![4096, 512]⟩ : Idealize.ShloMosaic.Shape).Idx → EReal := fun i => ((a (i 0) (i 1) : ℝ) : EReal)

/-! ## One tile

At grid point `(i, j)` the kernel sees rows `512 i ..` of one table as a block `A` and rows `512 j ..` of another as
a block `B`, with the rows' squared norms as columns; what it adds to its two running sums are the tile's sums below. -/

/-- A block of 512 rows of 512 reals. -/
abbrev Blk : Type := Fin 512 → Fin 512 → ℝ
/-- A column of 512 reals. -/
abbrev Col : Type := Fin 512 → ℝ

/-- A real block as a `[512, 512]` array of extended reals. -/
def blkArr (A : Blk) : (⟨2, ![512, 512]⟩ : Idealize.ShloMosaic.Shape).Idx → EReal := fun i => ((A (i 0) (i 1) : ℝ) : EReal)
/-- A real column as a `[512, 1]` array of extended reals. -/
def colArr (a : Col) : (⟨2, ![512, 1]⟩ : Idealize.ShloMosaic.Shape).Idx → EReal := fun i => ((a (i 0) : ℝ) : EReal)

/-- The Gram entry of row `p` of block `A` and row `q` of block `B`. -/
def dotB (A B : Blk) (p q : Fin 512) : ℝ := ∑ k : Fin 512, A p k * B q k

/-- The tile `(i, j)`'s sum of squared deviations of the Gram matrix from the identity: the identity's entry at the
    tile's `(p, q)` is one exactly when `512 i + p = 512 j + q`. -/
def tileOrth (i j : Fin 8) (A B : Blk) : ℝ :=
  ∑ p : Fin 512, ∑ q : Fin 512,
    (dotB A B p q - (if 512 * i.val + p.val = 512 * j.val + q.val then 1 else 0))
      * (dotB A B p q - (if 512 * i.val + p.val = 512 * j.val + q.val then 1 else 0))

/-- A tile's sum of Gaussian kernels, from the blocks and the columns of squared norms. -/
def tileGauss (A B : Blk) (na nb : Col) : ℝ :=
  ∑ p : Fin 512, ∑ q : Fin 512, Real.exp (-(max (na p + nb q - 2 * dotB A B p q) 0))

/-- What a tile adds to the kernel sum: `xx + yy - 2 xy`. -/
def tileMmd (A B C D : Blk) (na nb nc nd : Col) : ℝ :=
  tileGauss A B na nb + tileGauss C D nc nd - 2 * tileGauss A D na nd

/-! ## The tiles of a table -/

/-- Row `p` of the `i`-th group of 512 rows. -/
def rowAt (i : Fin 8) (p : Fin 512) : Fin 4096 := ⟨512 * i.val + p.val, by have := i.isLt; have := p.isLt; omega⟩

/-- The `i`-th group of 512 rows of a table, as a block. -/
def rowBlk (a : Mat) (i : Fin 8) : Blk := fun p k => a (rowAt i p) k

/-- The squared norms of the `i`-th group of 512 rows, as a column. -/
def normBlk (a : Mat) (i : Fin 8) : Col := fun p => nrmR a (rowAt i p)

/-- The result summed tile by tile: per row group `i` the tiles `(i, j)` over `j`, then over `i`, the two sums added and
    divided once. -/
def totalTiled (x y : Mat) : ℝ :=
  ((∑ i : Fin 8, ∑ j : Fin 8, tileOrth i j (rowBlk x i) (rowBlk y j))
    + (∑ i : Fin 8, ∑ j : Fin 8, tileMmd (rowBlk x i) (rowBlk x j) (rowBlk y i) (rowBlk y j)
        (normBlk x i) (normBlk x j) (normBlk y i) (normBlk y j))) / 16777216

end Cert.Combo

end
-- ==== Proof.LibRealStages.lean ====
/-
  Real stages inside the extended reals.

  A program run on real inputs stays real stage by stage: the coercion of the reals into the extended reals commutes
  with finite sums, with the quotient by a nonzero real, with the maximum and with the exponential. The three float
  patterns the programs spell are read here once: 0, 2 and 2^24 = 16777216.
-/
import Idealize.ShloMosaic.PureOps.Ideal.Laws

noncomputable section

open scoped BigOperators

namespace Cert.Combo.RealStages

open Idealize.ShloMosaic

/-- The coercion of the reals into the extended reals commutes with a finite sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real, taken in the extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The maximum of two reals, taken in the extended reals, is the real maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The pattern of the float `2.0` denotes the real 2. -/
theorem ofBits_two : Ideal.ofBits .f32 0x40000000#32 = ((2 : ℝ) : EReal) := by
  simp [Ideal.ofBits, Ideal.ieee, -EReal.coe_mul]; norm_num

/-- The pattern of the float `16777216.0` denotes the real 2^24. -/
theorem ofBits_two_pow_24 : Ideal.ofBits .f32 0x4B800000#32 = ((16777216 : ℝ) : EReal) := by
  simp [Ideal.ofBits, Ideal.ieee, -EReal.coe_mul]; norm_num

end Cert.Combo.RealStages

end
-- ==== Proof.KernelIdeal.HostSide.lean ====
/-
  The pipelined program's host side on real tables.

  Before the region the host casts the two tables to half precision (no change of value on the extended reals) and
  computes the columns of squared row norms: the product of a table with itself, summed along each row from zero, laid
  out as a column. So on real tables the four arrays the region reads are the two tables and their two columns of squared
  norms, and each window's block at a grid point is a group of 512 rows of one of them. After the region the host adds up
  the two output columns, adds the two sums and divides by 2^24.
-/
import proofs.«174178_j69131793596443_2_alg».proof.Proof.KernelIdeal.Setup
import proofs.«174178_j69131793596443_2_alg».proof.Proof.Spec
import proofs.«174178_j69131793596443_2_alg».proof.Proof.LibRealStages
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo
open Cert.Combo Cert.Combo.RealStages

variable (m : (ℓ : Loc nD τ sig) → Buf (Elt Ideal) ℓ)

/-! ## The four arrays the region reads -/

/-- Zero plus the sum of the coerced squares along a row is the coerced squared norm. -/
theorem nrm_sum (a : Mat) (r : Fin 4096) :
    Ideal.ofBits .f32 0x00000000#32 + (∑ k : Fin 512, ((a r k : ℝ) : EReal) * ((a r k : ℝ) : EReal)) = ((nrmR a r : ℝ) : EReal) := by
  simp only [← EReal.coe_mul]
  rw [coe_sum, Ideal.ofBits_zero_f32, zero_add]; rfl

/-- The column of squared row norms of a real table, as the host computes it: the product with itself, summed along
    each row from zero, laid out as a column. -/
theorem norm_col (a : Mat) (i : S4096x1.Idx) :
    broadcastInDim S4096x1 ![0] bcast_S4096_S4096x1_0
      (Host.reduceAdd (F := Ideal) (mulf (toArr a : FVec Ideal S4096x512 .f32) (toArr a)) (constant S_ .f32 0x00000000#32)
        reducesTo_S4096x512_S4096_d1 h_S_) i = ((nrmR a (i 0) : ℝ) : EReal) := by
  rw [broadcastInDim_apply _ bcast_S4096_S4096x1_0 _ i (ValueIdx.ix1 (i 0)) (fun b => match b with
    | ⟨0, _⟩ => by show (i 0).val = if (4096 : Nat) = 1 then 0 else (i 0).val; rw [if_neg (by decide)])]
  simp only [Host.reduceAdd, Ideal.hostReduceAdd_def]
  rw [Ideal.hostReduceAdd_single reducesTo_S4096x512_S4096_d1 (by decide)]
  refine Eq.trans ?_ (nrm_sum a (i 0))
  refine congrArg (_ + ·) (Finset.sum_congr rfl fun k _ => ?_)
  rfl

/-- The first table in half precision is the first table. -/
theorem V_v0 (c : Dev nD) (xr : Mat) (hx : m ((c.tc : Thread nD τ).loc main_arg0) = toArr xr) :
    V (F := Ideal) m c main_call0_v0 = toArr xr := by
  dsimp only [V, V0]
  simp only [hostOps0, List.flatten_cons, List.flatten_nil, List.append_nil]
  after_results
  rw [hx]
  rfl

/-- The second table in half precision is the second table. -/
theorem V_v1 (c : Dev nD) (yr : Mat) (hy : m ((c.tc : Thread nD τ).loc main_arg1) = toArr yr) :
    V (F := Ideal) m c main_call0_v1 = toArr yr := by
  dsimp only [V, V0]
  simp only [hostOps0, List.flatten_cons, List.flatten_nil, List.append_nil]
  after_results
  rw [hy]
  rfl

/-- The first table's column of squared row norms. -/
theorem V_v4 (c : Dev nD) (xr : Mat) (hx : m ((c.tc : Thread nD τ).loc main_arg0) = toArr xr) :
    V (F := Ideal) m c main_call0_v4 = fun i => ((nrmR xr (i 0) : ℝ) : EReal) := by
  dsimp only [V, V0]
  simp only [hostOps0, List.flatten_cons, List.flatten_nil, List.append_nil]
  after_results
  rw [hx]
  funext i
  exact norm_col xr i

/-- The second table's column of squared row norms. -/
theorem V_v7 (c : Dev nD) (yr : Mat) (hy : m ((c.tc : Thread nD τ).loc main_arg1) = toArr yr) :
    V (F := Ideal) m c main_call0_v7 = fun i => ((nrmR yr (i 0) : ℝ) : EReal) := by
  dsimp only [V, V0]
  simp only [hostOps0, List.flatten_cons, List.flatten_nil, List.append_nil]
  after_results
  rw [hy]
  funext i
  exact norm_col yr i

/-! ## The windows' blocks -/

/-- A real table's array at an index whose coordinates are known. -/
theorem toArr_at (a : Mat) (i : S4096x512.Idx) (r : Fin 4096) (k : Fin 512) (h0 : (i 0).val = r.val) (h1 : (i 1).val = k.val) :
    toArr a i = ((a r k : ℝ) : EReal) := by
  have e0 : (i 0 : Fin 4096) = r := Fin.ext h0
  have e1 : (i 1 : Fin 512) = k := Fin.ext h1
  exact congrArg₂ (fun r k => ((a r k : ℝ) : EReal)) e0 e1

/-- The column of squared norms at an index whose row is known. -/
theorem nrm_at (a : Mat) (i : S4096x1.Idx) (r : Fin 4096) (h0 : (i 0).val = r.val) :
    ((nrmR a (i 0) : ℝ) : EReal) = ((nrmR a r : ℝ) : EReal) := by
  have e0 : (i 0 : Fin 4096) = r := Fin.ext h0
  exact congrArg (fun r => ((nrmR a r : ℝ) : EReal)) e0

/-- The windows' block indices at a grid point: on the rows, the point's first coordinate for the even windows and its
    second for the odd ones; on the columns, zero. -/
theorem idx_facts : ∀ t : Fin cfg0.N,
    (win0_0.index t (0 : Fin 2) = (grid0.coords t 0).val ∧ win0_0.index t (1 : Fin 2) = 0)
    ∧ (win0_1.index t (0 : Fin 2) = (grid0.coords t 1).val ∧ win0_1.index t (1 : Fin 2) = 0)
    ∧ (win0_2.index t (0 : Fin 2) = (grid0.coords t 0).val ∧ win0_2.index t (1 : Fin 2) = 0)
    ∧ (win0_3.index t (0 : Fin 2) = (grid0.coords t 1).val ∧ win0_3.index t (1 : Fin 2) = 0)
    ∧ (win0_4.index t (0 : Fin 2) = (grid0.coords t 0).val ∧ win0_4.index t (1 : Fin 2) = 0)
    ∧ (win0_5.index t (0 : Fin 2) = (grid0.coords t 1).val ∧ win0_5.index t (1 : Fin 2) = 0)
    ∧ (win0_6.index t (0 : Fin 2) = (grid0.coords t 0).val ∧ win0_6.index t (1 : Fin 2) = 0)
    ∧ (win0_7.index t (0 : Fin 2) = (grid0.coords t 1).val ∧ win0_7.index t (1 : Fin 2) = 0) :=
  (by decide +kernel : ∀ t : Fin grid0.N, _)

/-- Window 0's block at a point is the first table's row group of the point's first coordinate. -/
theorem iblk0 (c : Dev nD) (t : Fin cfg0.N) (xr : Mat) (hx : m ((c.tc : Thread nD τ).loc main_arg0) = toArr xr) :
    iblk (F := Ideal) m c 0 t = blkArr (rowBlk xr (grid0.coords t 0)) := by
  funext j
  show V (F := Ideal) m c main_call0_v0 (((cfg0.win 0).blk t).view.emb j) = _
  rw [V_v0 m c xr hx]
  obtain ⟨⟨e0, e1⟩, -⟩ := idx_facts t
  refine toArr_at xr _ (rowAt (grid0.coords t 0) (j 0)) (j 1) ?_ ?_
  · show win0_0.index t (0 : Fin 2) * 512 + 1 * (j 0).val = 512 * (grid0.coords t 0).val + (j 0).val
    omega
  · show win0_0.index t (1 : Fin 2) * 512 + 1 * (j 1).val = (j 1).val
    omega

/-- Window 1's block at a point is the first table's row group of the point's second coordinate. -/
theorem iblk1 (c : Dev nD) (t : Fin cfg0.N) (xr : Mat) (hx : m ((c.tc : Thread nD τ).loc main_arg0) = toArr xr) :
    iblk (F := Ideal) m c 1 t = blkArr (rowBlk xr (grid0.coords t 1)) := by
  funext j
  show V (F := Ideal) m c main_call0_v0 (((cfg0.win 1).blk t).view.emb j) = _
  rw [V_v0 m c xr hx]
  obtain ⟨-, ⟨e0, e1⟩, -⟩ := idx_facts t
  refine toArr_at xr _ (rowAt (grid0.coords t 1) (j 0)) (j 1) ?_ ?_
  · show win0_1.index t (0 : Fin 2) * 512 + 1 * (j 0).val = 512 * (grid0.coords t 1).val + (j 0).val
    omega
  · show win0_1.index t (1 : Fin 2) * 512 + 1 * (j 1).val = (j 1).val
    omega

/-- Window 2's block at a point is the second table's row group of the point's first coordinate. -/
theorem iblk2 (c : Dev nD) (t : Fin cfg0.N) (yr : Mat) (hy : m ((c.tc : Thread nD τ).loc main_arg1) = toArr yr) :
    iblk (F := Ideal) m c 2 t = blkArr (rowBlk yr (grid0.coords t 0)) := by
  funext j
  show V (F := Ideal) m c main_call0_v1 (((cfg0.win 2).blk t).view.emb j) = _
  rw [V_v1 m c yr hy]
  obtain ⟨-, -, ⟨e0, e1⟩, -⟩ := idx_facts t
  refine toArr_at yr _ (rowAt (grid0.coords t 0) (j 0)) (j 1) ?_ ?_
  · show win0_2.index t (0 : Fin 2) * 512 + 1 * (j 0).val = 512 * (grid0.coords t 0).val + (j 0).val
    omega
  · show win0_2.index t (1 : Fin 2) * 512 + 1 * (j 1).val = (j 1).val
    omega

/-- Window 3's block at a point is the second table's row group of the point's second coordinate. -/
theorem iblk3 (c : Dev nD) (t : Fin cfg0.N) (yr : Mat) (hy : m ((c.tc : Thread nD τ).loc main_arg1) = toArr yr) :
    iblk (F := Ideal) m c 3 t = blkArr (rowBlk yr (grid0.coords t 1)) := by
  funext j
  show V (F := Ideal) m c main_call0_v1 (((cfg0.win 3).blk t).view.emb j) = _
  rw [V_v1 m c yr hy]
  obtain ⟨-, -, -, ⟨e0, e1⟩, -⟩ := idx_facts t
  refine toArr_at yr _ (rowAt (grid0.coords t 1) (j 0)) (j 1) ?_ ?_
  · show win0_3.index t (0 : Fin 2) * 512 + 1 * (j 0).val = 512 * (grid0.coords t 1).val + (j 0).val
    omega
  · show win0_3.index t (1 : Fin 2) * 512 + 1 * (j 1).val = (j 1).val
    omega

/-- Window 4's block at a point is the first table's squared norms of the row group of the point's first coordinate. -/
theorem iblk4 (c : Dev nD) (t : Fin cfg0.N) (xr : Mat) (hx : m ((c.tc : Thread nD τ).loc main_arg0) = toArr xr) :
    iblk (F := Ideal) m c 4 t = colArr (normBlk xr (grid0.coords t 0)) := by
  funext j
  show V (F := Ideal) m c main_call0_v4 (((cfg0.win 4).blk t).view.emb j) = _
  rw [V_v4 m c xr hx]
  obtain ⟨-, -, -, -, ⟨e0, e1⟩, -⟩ := idx_facts t
  refine nrm_at xr _ (rowAt (grid0.coords t 0) (j 0)) ?_
  show win0_4.index t (0 : Fin 2) * 512 + 1 * (j 0).val = 512 * (grid0.coords t 0).val + (j 0).val
  omega

/-- Window 5's block at a point is the first table's squared norms of the row group of the point's second coordinate. -/
theorem iblk5 (c : Dev nD) (t : Fin cfg0.N) (xr : Mat) (hx : m ((c.tc : Thread nD τ).loc main_arg0) = toArr xr) :
    iblk (F := Ideal) m c 5 t = colArr (normBlk xr (grid0.coords t 1)) := by
  funext j
  show V (F := Ideal) m c main_call0_v4 (((cfg0.win 5).blk t).view.emb j) = _
  rw [V_v4 m c xr hx]
  obtain ⟨-, -, -, -, -, ⟨e0, e1⟩, -⟩ := idx_facts t
  refine nrm_at xr _ (rowAt (grid0.coords t 1) (j 0)) ?_
  show win0_5.index t (0 : Fin 2) * 512 + 1 * (j 0).val = 512 * (grid0.coords t 1).val + (j 0).val
  omega

/-- Window 6's block at a point is the second table's squared norms of the row group of the point's first coordinate. -/
theorem iblk6 (c : Dev nD) (t : Fin cfg0.N) (yr : Mat) (hy : m ((c.tc : Thread nD τ).loc main_arg1) = toArr yr) :
    iblk (F := Ideal) m c 6 t = colArr (normBlk yr (grid0.coords t 0)) := by
  funext j
  show V (F := Ideal) m c main_call0_v7 (((cfg0.win 6).blk t).view.emb j) = _
  rw [V_v7 m c yr hy]
  obtain ⟨-, -, -, -, -, -, ⟨e0, e1⟩, -⟩ := idx_facts t
  refine nrm_at yr _ (rowAt (grid0.coords t 0) (j 0)) ?_
  show win0_6.index t (0 : Fin 2) * 512 + 1 * (j 0).val = 512 * (grid0.coords t 0).val + (j 0).val
  omega

/-- Window 7's block at a point is the second table's squared norms of the row group of the point's second coordinate. -/
theorem iblk7 (c : Dev nD) (t : Fin cfg0.N) (yr : Mat) (hy : m ((c.tc : Thread nD τ).loc main_arg1) = toArr yr) :
    iblk (F := Ideal) m c 7 t = colArr (normBlk yr (grid0.coords t 1)) := by
  funext j
  show V (F := Ideal) m c main_call0_v7 (((cfg0.win 7).blk t).view.emb j) = _
  rw [V_v7 m c yr hy]
  obtain ⟨-, -, -, -, -, -, -, ⟨e0, e1⟩⟩ := idx_facts t
  refine nrm_at yr _ (rowAt (grid0.coords t 1) (j 0)) ?_
  show win0_7.index t (0 : Fin 2) * 512 + 1 * (j 0).val = 512 * (grid0.coords t 1).val + (j 0).val
  omega

/-! ## The host tail -/

/-- A column of eight entries is indexed by its first coordinate. -/
def colEquiv : S8x1x1.Idx ≃ Fin 8 where
  toFun i := i 0
  invFun a := ValueIdx.ix3 a (0 : Fin 1) (0 : Fin 1)
  left_inv i := by
    funext b
    match b with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- The sum over a column of eight coerced reals is the coerced sum. -/
theorem sum_col (f : Fin 8 → ℝ) : (∑ j : S8x1x1.Idx, ((f (j 0) : ℝ) : EReal)) = ((∑ a, f a : ℝ) : EReal) :=
  (Equiv.sum_comp colEquiv (fun a => ((f a : ℝ) : EReal))).trans (coe_sum _ _)

/-- The host's sum of a column of eight coerced reals, from zero, is the coerced sum. -/
theorem col_total (f : Fin 8 → ℝ) (i : S_.Idx) :
    Host.reduceAdd (F := Ideal) (φ := .f32) (fun j : S8x1x1.Idx => ((f (j 0) : ℝ) : EReal)) (constant S_ .f32 0x00000000#32)
      reducesTo_S8x1x1_S_d0_1_2 h_S_ i = ((∑ a, f a : ℝ) : EReal) := by
  simp only [Host.reduceAdd, Ideal.hostReduceAdd_def]
  rw [Ideal.hostReduceAdd_total reducesTo_S8x1x1_S_d0_1_2 (fun b => b.elim0), sum_col]
  show Ideal.ofBits .f32 0x00000000#32 + _ = _
  rw [Ideal.ofBits_zero_f32, zero_add]

/-- After the region: when the two output columns hold reals, the result is the sum of all their entries over 2^24. -/
theorem tail_value (W : Valuation τ sig (Elt Ideal)) (o g : Fin 8 → ℝ)
    (hW8 : W (Proc.devRef .tc main_call0_v8_0) = fun i => ((o (i 0) : ℝ) : EReal))
    (hW9 : W (Proc.devRef .tc main_call0_v8_1) = fun i => ((g (i 0) : ℝ) : EReal)) :
    StableHlo.after (List.flatten [hostOps1, hostOps1_1]) W (Proc.devRef .tc main_v2)
      = fun _ => ((((∑ a, o a) + (∑ a, g a)) / 16777216 : ℝ) : EReal) := by
  simp only [hostOps1, hostOps1_1, List.flatten_cons, List.flatten_nil, List.append_nil, List.cons_append, List.nil_append]
  after_results
  rw [hW8, hW9]
  funext i
  show Ideal.div
      (Host.reduceAdd (F := Ideal) (φ := .f32) (fun j : S8x1x1.Idx => ((o (j 0) : ℝ) : EReal)) (constant S_ .f32 0x00000000#32)
          reducesTo_S8x1x1_S_d0_1_2 h_S_ i
        + Host.reduceAdd (F := Ideal) (φ := .f32) (fun j : S8x1x1.Idx => ((g (j 0) : ℝ) : EReal)) (constant S_ .f32 0x00000000#32)
          reducesTo_S8x1x1_S_d0_1_2 h_S_ i)
      (Ideal.ofBits .f32 0x4B800000#32) = _
  rw [col_total, col_total, ofBits_two_pow_24, ← EReal.coe_add, div_coe_coe _ (by norm_num : (16777216 : ℝ) ≠ 0)]

end Cert.KernelIdeal.Hand

end
-- ==== Proof.TileGram.lean ====
/-
  The Gram tile of two blocks, read at an entry.

  The kernel multiplies a block X of 512 rows by the transpose of a block Y of 512 rows, contracting the 512 columns,
  into a zero accumulator. Over the extended reals the entry (p, q) of the product is the sum over k of X(p, k) Y(q, k);
  when both blocks hold reals it is the real Gram entry of row p of X and row q of Y.
-/
import proofs.«174178_j69131793596443_2_alg».proof.Proof.Gen.KernelIdeal.Skeleton
import proofs.«174178_j69131793596443_2_alg».proof.Proof.Spec
import Idealize.ShloMosaic.Lib.ValueIdx
import Idealize.ShloMosaic.Lib.Pipeline.Value
import Idealize.ShloMosaic.PureOps.Ideal.Laws

noncomputable section

open scoped BigOperators

namespace Cert.Combo.Tile

open Idealize.ShloMosaic Idealize.ShloMosaic.ValueIdx Idealize.SL.Sem Cert.KernelIdeal Cert.KernelIdeal.Gen

/-- The embedding of the reals in the extended reals commutes with finite sums. -/
theorem coe_sum {ι : Type*} (S : Finset ι) (g : ι → ℝ) :
    ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- The product's dimension numbers: the left operand's columns against the right operand's rows. -/
abbrev dims : DotDims S512x512 S512x512 S512x512 := dot_S512x512_S512x512_S512x512_1_0_0_1_n_n

theorem lhs_row (i : S512x512.Idx) (c : dims.contr.Idx) : (dims.lhsIdx i c 0).val = (i 0).val := by
  unfold DotDims.lhsIdx
  rw [dif_neg (show ¬(0 : Fin S512x512.rank) ∈ dims.lhsBatch by decide),
    dif_pos (show (0 : Fin S512x512.rank) ∈ dims.lhsNonContracting by decide)]
  rfl

theorem lhs_col (i : S512x512.Idx) (c : dims.contr.Idx) : (dims.lhsIdx i c 1).val = (c ⟨0, by decide⟩).val :=
  dims.lhsIdx_val_of_single rfl i c

theorem rhs_row (i : S512x512.Idx) (c : dims.contr.Idx) : (dims.rhsIdx i c 0).val = (c ⟨0, by decide⟩).val :=
  dims.rhsIdx_val_of_single rfl i c

theorem rhs_col (i : S512x512.Idx) (c : dims.contr.Idx) : (dims.rhsIdx i c 1).val = (i 1).val := by
  unfold DotDims.rhsIdx
  rw [dif_neg (show ¬(1 : Fin S512x512.rank) ∈ dims.rhsBatch by decide),
    dif_pos (show (1 : Fin S512x512.rank) ∈ dims.rhsNonContracting by decide)]
  rfl

/-- The product into the zero accumulator at entry (p, q): the sum over k of X(p, k) Z(k, q). -/
theorem matmul_zero_apply (X Z : FVec Ideal S512x512 .bf16) (p q : Fin 512) :
    matmul dims none X Z (constant (F := Ideal) S512x512 .f32 0x00000000#32) (ix2 p q)
      = ∑ k : Fin 512, X (ix2 p k) * Z (ix2 k q) := by
  simp only [matmul]
  rw [Ideal.matmul_constant_zero_apply, ← Equiv.sum_comp (contrEquiv1 dims 512 rfl rfl).symm]
  refine Finset.sum_congr rfl fun k _ => ?_
  have hk := contrEquiv1_symm_val dims 512 rfl rfl k
  have el : dims.lhsIdx (ix2 p q) ((contrEquiv1 dims 512 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 512 rfl rfl).symm k) = ix2 k q := funext fun a => Fin.ext (by
    match a with
    | ⟨0, _⟩ => exact (rhs_row _ _).trans hk
    | ⟨1, _⟩ => exact rhs_col _ _)
  rw [el, er]

/-- The transpose of a block reads, at (k, q), the block at (q, k). -/
theorem transpose_blk_apply (Y : FVec Ideal S512x512 .bf16) (k q : Fin 512) :
    transpose S512x512 [1, 0] Y transposes_S512x512_p1_0_S512x512 (ix2 k q) = Y (ix2 q k) :=
  transpose_apply [1, 0] Y transposes_S512x512_p1_0_S512x512 (ix2 k q) (ix2 q k) (fun b => match b with
    | ⟨0, _⟩ => rfl
    | ⟨1, _⟩ => rfl)

/-- A block times the transpose of a block, at entry (p, q): the sum over k of X(p, k) Y(q, k). -/
theorem gram_apply (X Y : FVec Ideal S512x512 .bf16) (p q : Fin 512) :
    matmul dims none X (transpose S512x512 [1, 0] Y transposes_S512x512_p1_0_S512x512)
        (constant (F := Ideal) S512x512 .f32 0x00000000#32) (ix2 p q)
      = ∑ k : Fin 512, X (ix2 p k) * Y (ix2 q k) := by
  rw [matmul_zero_apply]
  exact Finset.sum_congr rfl fun k _ => by rw [transpose_blk_apply]

/-- For real blocks the sum is the real Gram entry. -/
theorem gram_real (A B : Blk) (p q : Fin 512) :
    (∑ k : Fin 512, blkArr A (ix2 p k) * blkArr B (ix2 q k)) = ((dotB A B p q : ℝ) : EReal) := by
  unfold dotB
  rw [coe_sum]
  exact Finset.sum_congr rfl fun k _ => (EReal.coe_mul _ _).symm

/-- The kernel's mixed Gram tile (rows of the first block against rows of the fourth). -/
theorem pay13_apply (A D : Blk) (p q : Fin 512) :
    k0_pay13 (F := Ideal) (blkArr A) (blkArr D) (ix2 p q) = ((dotB A D p q : ℝ) : EReal) := by
  unfold k0_pay13 k0_pay7 k0_pay8
  simp only [shapeCast_self]
  exact (gram_apply _ _ p q).trans (gram_real A D p q)

/-- The kernel's second Gram tile (rows of the third block against rows of the fourth). -/
theorem pay12_apply (C D : Blk) (p q : Fin 512) :
    k0_pay12 (F := Ideal) (blkArr C) (blkArr D) (ix2 p q) = ((dotB C D p q : ℝ) : EReal) := by
  unfold k0_pay12 k0_pay8
  simp only [shapeCast_self]
  exact (gram_apply _ _ p q).trans (gram_real C D p q)

end Cert.Combo.Tile

end
-- ==== Proof.TileGauss.lean ====
/-
  The clamped squared distances and Gaussian kernels of a tile, and the sum of a tile, read at the extended reals.

  From the columns u, v of squared norms and a Gram tile G the kernel forms, at (p, q),
    d2 = max (u p + v q - 2 G(p, q)) 0   and   exp (0 - d2),
  and it sums a 512 x 512 tile first along each row and then down the column of row sums. When the columns and the
  tile hold reals each of these is the real quantity of the same name.
-/
import proofs.«174178_j69131793596443_2_alg».proof.Proof.TileGram
import Idealize.ShloMosaic.Lib.ValueLayout

noncomputable section

open scoped BigOperators

namespace Cert.Combo.Tile

open Idealize.ShloMosaic Idealize.ShloMosaic.ValueIdx Idealize.SL.Sem Cert.KernelIdeal Cert.KernelIdeal.Gen

/-! ## Layout: a column along the rows, a column laid as a row along the columns -/

/-- A column broadcast to a tile reads, at (p, q), the column's entry of row p. -/
theorem bcast_col_apply (u : FVec Ideal S512x1 .f32) (p q : Fin 512) :
    broadcastTo S512x512 u broadcasts_S512x1_S512x512 (ix2 p q) = u (ix2 p (0 : Fin 1)) := by
  refine broadcastTo_apply u broadcasts_S512x1_S512x512 (ix2 p q) (ix2 p (0 : Fin 1)) fun a => ?_
  match a with
  | ⟨0, _⟩ => show p.val = if (512 : Nat) = 1 then 0 else p.val; rw [if_neg (by decide)]
  | ⟨1, _⟩ => show (0 : Nat) = if (1 : Nat) = 1 then 0 else q.val; rw [if_pos rfl]

/-- A column transposed to a row and broadcast to a tile reads, at (p, q), the column's entry of row q. -/
theorem bcast_row_apply (v : FVec Ideal S512x1 .f32) (p q : Fin 512) :
    broadcastTo S512x512 (transpose S1x512 [1, 0] v transposes_S512x1_p1_0_S1x512) broadcasts_S1x512_S512x512 (ix2 p q)
      = v (ix2 q (0 : Fin 1)) := by
  refine (broadcastTo_1b_ab_apply _ broadcasts_S1x512_S512x512 p q).trans ?_
  exact transpose_apply [1, 0] v transposes_S512x1_p1_0_S1x512 (ix2 (0 : Fin 1) q) (ix2 q (0 : Fin 1)) (fun b => match b with
    | ⟨0, _⟩ => rfl
    | ⟨1, _⟩ => rfl)

/-! ## The two literals -/

theorem two_f32 : Ideal.ofBits .f32 0x40000000#32 = 2 := by
  simp [Ideal.ofBits, Ideal.ieee]
  rw [← EReal.coe_mul, show (2 : EReal) = ((2 : ℝ) : EReal) by norm_cast, EReal.coe_eq_coe_iff]
  norm_num

/-! ## The distance and kernel stages over arbitrary columns and tile -/

/-- The clamped distance stage at (p, q). -/
def d2E (a b g : EReal) : EReal := max (a + b - 2 * g) 0

theorem pay14_stage (X Y : FVec Ideal S512x512 .bf16) (u v : FVec Ideal S512x1 .f32) (p q : Fin 512) :
    k0_pay14 (F := Ideal) X Y u v (ix2 p q)
      = d2E (u (ix2 p (0 : Fin 1))) (v (ix2 q (0 : Fin 1))) (∑ k : Fin 512, X (ix2 p k) * Y (ix2 q k)) := by
  unfold k0_pay14 k0_pay7 k0_pay9
  simp only [shapeCast_self]
  show max ((broadcastTo S512x512 u broadcasts_S512x1_S512x512 (ix2 p q)
        + broadcastTo S512x512 (transpose S1x512 [1, 0] v transposes_S512x1_p1_0_S1x512) broadcasts_S1x512_S512x512 (ix2 p q))
      - Ideal.ofBits .f32 0x40000000#32
        * matmul dims none X (transpose S512x512 [1, 0] Y transposes_S512x512_p1_0_S512x512)
            (constant (F := Ideal) S512x512 .f32 0x00000000#32) (ix2 p q))
      (Ideal.ofBits .f32 0x00000000#32) = _
  rw [bcast_col_apply, bcast_row_apply, gram_apply, two_f32, Ideal.ofBits_zero_f32]
  rfl

/-- The kernel stage of a finished distance tile. -/
theorem pay15_stage (W : FVec Ideal S512x512 .f32) (p q : Fin 512) :
    k0_pay15 (F := Ideal) W (ix2 p q) = Ideal.exp (0 - W (ix2 p q)) := by
  unfold k0_pay15
  show Ideal.exp (Ideal.ofBits .f32 0x00000000#32 - W (ix2 p q)) = _
  rw [Ideal.ofBits_zero_f32]

/-- The distance and kernel stages from two columns and a Gram tile. -/
theorem pay16_stage (u v : FVec Ideal S512x1 .f32) (G : FVec Ideal S512x512 .f32) (p q : Fin 512) :
    k0_pay16 (F := Ideal) u v G (ix2 p q)
      = Ideal.exp (0 - d2E (u (ix2 p (0 : Fin 1))) (v (ix2 q (0 : Fin 1))) (G (ix2 p q))) := by
  unfold k0_pay16
  show Ideal.exp (Ideal.ofBits .f32 0x00000000#32 - max ((broadcastTo S512x512 u broadcasts_S512x1_S512x512 (ix2 p q)
        + broadcastTo S512x512 (transpose S1x512 [1, 0] v transposes_S512x1_p1_0_S1x512) broadcasts_S1x512_S512x512 (ix2 p q))
      - Ideal.ofBits .f32 0x40000000#32 * G (ix2 p q))
      (Ideal.ofBits .f32 0x00000000#32)) = _
  rw [bcast_col_apply, bcast_row_apply, two_f32, Ideal.ofBits_zero_f32]
  rfl

theorem pay17_stage (u v : FVec Ideal S512x1 .f32) (G : FVec Ideal S512x512 .f32) (p q : Fin 512) :
    k0_pay17 (F := Ideal) u v G (ix2 p q)
      = Ideal.exp (0 - d2E (u (ix2 p (0 : Fin 1))) (v (ix2 q (0 : Fin 1))) (G (ix2 p q))) := by
  unfold k0_pay17
  show Ideal.exp (Ideal.ofBits .f32 0x00000000#32 - max ((broadcastTo S512x512 u broadcasts_S512x1_S512x512 (ix2 p q)
        + broadcastTo S512x512 (transpose S1x512 [1, 0] v transposes_S512x1_p1_0_S1x512) broadcasts_S1x512_S512x512 (ix2 p q))
      - Ideal.ofBits .f32 0x40000000#32 * G (ix2 p q))
      (Ideal.ofBits .f32 0x00000000#32)) = _
  rw [bcast_col_apply, bcast_row_apply, two_f32, Ideal.ofBits_zero_f32]
  rfl

/-! ## With reals in the columns and the tile -/

/-- The clamped distance of reals is the real clamped distance. -/
theorem d2E_real (a b g : ℝ) : d2E (a : EReal) (b : EReal) (g : EReal) = ((max (a + b - 2 * g) 0 : ℝ) : EReal) := by
  unfold d2E
  rw [EReal.coe_strictMono.monotone.map_max, EReal.coe_sub, EReal.coe_add, EReal.coe_mul]
  norm_cast

/-- The kernel of a real distance is the real Gaussian. -/
theorem exp_neg_real (d : ℝ) : Ideal.exp (0 - (d : EReal)) = ((Real.exp (-d) : ℝ) : EReal) := by
  rw [← EReal.coe_zero, ← EReal.coe_sub, zero_sub]
  rfl

/-- The Gaussian kernel's entry at (p, q) from real blocks and real norm columns. -/
def gaussB (A B : Blk) (na nb : Col) (p q : Fin 512) : ℝ := Real.exp (-(max (na p + nb q - 2 * dotB A B p q) 0))

/-- The first kernel tile (first block against the second, their norms). -/
theorem kxx_apply (A B : Blk) (na nb : Col) (p q : Fin 512) :
    k0_pay15 (F := Ideal) (k0_pay14 (blkArr A) (blkArr B) (colArr na) (colArr nb)) (ix2 p q)
      = ((gaussB A B na nb p q : ℝ) : EReal) := by
  rw [pay15_stage, pay14_stage, gram_real]
  show Ideal.exp (0 - d2E ((na p : ℝ) : EReal) ((nb q : ℝ) : EReal) _) = _
  rw [d2E_real, exp_neg_real]
  rfl

/-- The second kernel tile (third block against the fourth, their norms). -/
theorem kyy_apply (C D : Blk) (nc nd : Col) (p q : Fin 512) :
    k0_pay16 (F := Ideal) (k0_pay10 (colArr nc)) (k0_pay11 (colArr nd)) (k0_pay12 (blkArr C) (blkArr D)) (ix2 p q)
      = ((gaussB C D nc nd p q : ℝ) : EReal) := by
  rw [pay16_stage, pay12_apply]
  unfold k0_pay10 k0_pay11
  simp only [shapeCast_self]
  show Ideal.exp (0 - d2E ((nc p : ℝ) : EReal) ((nd q : ℝ) : EReal) _) = _
  rw [d2E_real, exp_neg_real]
  rfl

/-- The mixed kernel tile (first block against the fourth, their norms). -/
theorem kxy_apply (A D : Blk) (na nd : Col) (p q : Fin 512) :
    k0_pay17 (F := Ideal) (k0_pay9 (colArr na)) (k0_pay11 (colArr nd)) (k0_pay13 (blkArr A) (blkArr D)) (ix2 p q)
      = ((gaussB A D na nd p q : ℝ) : EReal) := by
  rw [pay17_stage, pay13_apply]
  unfold k0_pay9 k0_pay11
  simp only [shapeCast_self]
  show Ideal.exp (0 - d2E ((na p : ℝ) : EReal) ((nd q : ℝ) : EReal) _) = _
  rw [d2E_real, exp_neg_real]
  rfl

end Cert.Combo.Tile

end
-- ==== Proof.TileValue.lean ====
/-
  What one grid point adds to the kernel's two running sums, the values the sums start from, and their hand-over.

  A 512 x 512 tile is summed along each row and then down the column of row sums: the double sum over its entries.
  The first running sum receives the tile's sum of squared deviations of the mixed Gram tile from the identity, whose
  entry at (p, q) of grid point (i, j) is one exactly when 512 i + p = 512 j + q (the words are below 2^32, so the
  comparison of words is the comparison of numbers). The second receives the three kernel tiles' sums, xx + yy - 2 xy.
-/
import proofs.«174178_j69131793596443_2_alg».proof.Proof.TileGauss

noncomputable section

open scoped BigOperators

namespace Cert.Combo.Tile

open Idealize.ShloMosaic Idealize.ShloMosaic.ValueIdx Idealize.SL.Sem Cert.KernelIdeal Cert.KernelIdeal.Gen

/-! ## The sum of a tile in two steps -/

/-- A row sum: the tile reduced along its second axis, at row p. -/
theorem rowSum_apply (W : FVec Ideal S512x512 .f32) (p : Fin 512) :
    multiReduction (F := Ideal) .add [1] S512 W 0x00000000#32 reduces_S512x512_S512 (.inl rfl) rfl (ix1 p)
      = ∑ q : Fin 512, W (ix2 p q) := by
  refine (Ideal.multiReduction_add_single W 0x00000000#32 reduces_S512x512_S512 (.inl rfl) rfl (ix1 p)).trans ?_
  refine Finset.sum_congr rfl fun q _ => congrArg W (funext fun a => Fin.ext ?_)
  match a with
  | ⟨0, _⟩ => rfl
  | ⟨1, _⟩ => rfl

/-- A flat array of 512 cast to a column reads, at (p, 0), the array at p. -/
theorem cast_col_apply {α : Type} (x : S512.Idx → α) (p : Fin 512) (u : Fin 1) :
    shapeCast S512x1 x shapeCasts_S512_S512x1 (ix2 p u) = x (ix1 p) :=
  shapeCast_apply x shapeCasts_S512_S512x1 _ _ (by
    have hu : u.val = 0 := by omega
    rw [Shape.rowMajor_val_two, Shape.rowMajor_val_one]
    show p.val = p.val * 1 + u.val
    rw [hu, Nat.mul_one, Nat.add_zero])

/-- The column sum of a column, at its one entry. -/
theorem colSum_apply (c : FVec Ideal S512x1 .f32) (t : S1.Idx) :
    multiReduction (F := Ideal) .add [0] S1 c 0x00000000#32 reduces_S512x1_S1 (.inl rfl) rfl t
      = ∑ p : Fin 512, c (ix2 p (0 : Fin 1)) := by
  refine (Ideal.multiReduction_add_single c 0x00000000#32 reduces_S512x1_S1 (.inl rfl) rfl t).trans ?_
  refine Finset.sum_congr rfl fun p _ => congrArg c (funext fun a => Fin.ext ?_)
  match a with
  | ⟨0, _⟩ => rfl
  | ⟨1, _⟩ =>
    show (t 0).val = 0
    have h := (t 0).isLt
    change (t 0).val < 1 at h
    omega

/-- The two-step sum of a tile is the double sum over its entries. -/
theorem twoStepSum (W : FVec Ideal S512x512 .f32) (t : S1x1.Idx) :
    shapeCast S1x1
        (multiReduction (F := Ideal) .add [0] S1
          (shapeCast S512x1 (multiReduction (F := Ideal) .add [1] S512 W 0x00000000#32 reduces_S512x512_S512 (.inl rfl) rfl)
            shapeCasts_S512_S512x1)
          0x00000000#32 reduces_S512x1_S1 (.inl rfl) rfl)
        shapeCasts_S1_S1x1 t
      = ∑ p : Fin 512, ∑ q : Fin 512, W (ix2 p q) := by
  refine (shapeCast_addUnit_apply ![1] _ shapeCasts_S1_S1x1 t).trans ?_
  refine (colSum_apply _ _).trans ?_
  refine Finset.sum_congr rfl fun p _ => ?_
  exact (cast_col_apply _ p 0).trans (rowSum_apply W p)

/-- A double sum of reals, embedded. -/
theorem sum_real (f : Fin 512 → Fin 512 → ℝ) :
    (∑ p : Fin 512, ∑ q : Fin 512, ((f p q : ℝ) : EReal)) = ((∑ p : Fin 512, ∑ q : Fin 512, f p q : ℝ) : EReal) := by
  rw [coe_sum]
  exact Finset.sum_congr rfl fun p _ => (coe_sum _ _).symm

/-! ## The identity's entry -/

/-- The word of the number 512 a + p. -/
def word (a : BitVec 32) (p : Fin 512) : BitVec 32 := IntOp.addi (Scalar.muli a 512#32) (BitVec.ofNat 32 p.val)

/-- Below 4096 the word's arithmetic does not wrap. -/
theorem word_toNat (i : Fin 8) (p : Fin 512) : (word (BitVec.ofNat 32 i.val) p).toNat = 512 * i.val + p.val := by
  have hi := i.isLt
  have hp := p.isLt
  show (BitVec.ofNat 32 i.val * 512#32 + BitVec.ofNat 32 p.val).toNat = _
  simp only [BitVec.toNat_add, BitVec.toNat_mul, BitVec.toNat_ofNat]
  omega

/-- The identity's entry as the kernel computes it: compare the two words, widen the bit, convert. -/
def eyeE (a b : BitVec 32) (p q : Fin 512) : EReal :=
  FloatOps.sitofp (F := Ideal) .f32 ((IntOp.cmpi .eq (word a p) (word b q)).setWidth 32)

/-- At grid point (i, j) it is one exactly when 512 i + p = 512 j + q. -/
theorem eyeE_real (i j : Fin 8) (p q : Fin 512) :
    eyeE (BitVec.ofNat 32 i.val) (BitVec.ofNat 32 j.val) p q
      = (((if 512 * i.val + p.val = 512 * j.val + q.val then 1 else 0 : ℝ)) : EReal) := by
  unfold eyeE
  by_cases h : 512 * i.val + p.val = 512 * j.val + q.val
  · have e : word (BitVec.ofNat 32 i.val) p = word (BitVec.ofNat 32 j.val) q :=
      BitVec.eq_of_toNat_eq (by rw [word_toNat, word_toNat, h])
    rw [e, if_pos h]
    have c : IntOp.cmpi .eq (word (BitVec.ofNat 32 j.val) q) (word (BitVec.ofNat 32 j.val) q) = 1#1 := by
      simp [IntOp.cmpi]
    rw [c]
    show (((BitVec.setWidth 32 1#1).toInt : ℝ) : EReal) = ((1 : ℝ) : EReal)
    have hw : (BitVec.setWidth 32 1#1).toInt = 1 := by decide
    rw [hw]
    norm_num
  · have ne : word (BitVec.ofNat 32 i.val) p ≠ word (BitVec.ofNat 32 j.val) q := fun e => h (by
      rw [← word_toNat i p, ← word_toNat j q, e])
    rw [if_neg h]
    have c : IntOp.cmpi .eq (word (BitVec.ofNat 32 i.val) p) (word (BitVec.ofNat 32 j.val) q) = 0#1 := by
      have hb : (word (BitVec.ofNat 32 i.val) p == word (BitVec.ofNat 32 j.val) q) = false := beq_eq_false_iff_ne.mpr ne
      show BitVec.ofBool (word (BitVec.ofNat 32 i.val) p == word (BitVec.ofNat 32 j.val) q) = 0#1
      rw [hb]
      rfl
    rw [c]
    show (((BitVec.setWidth 32 0#1).toInt : ℝ) : EReal) = ((0 : ℝ) : EReal)
    have hw : (BitVec.setWidth 32 0#1).toInt = 0 := by decide
    rw [hw]
    norm_num

/-- The identity tile built from the two coordinate arrays, at (p, q). -/
theorem eyeVec_apply (a b : BitVec 32) (p q : Fin 512) :
    (sitofp (F := Ideal) .f32 (extui 32 (cmpi .eq
        (addi (broadcast S512x512 (Scalar.muli a 512#32)) (iota .tc S512x512 32 [0] iota_S512x512_d0_w32))
        (addi (broadcast S512x512 (Scalar.muli b 512#32)) (iota .tc S512x512 32 [1] iota_S512x512_d1_w32))) natLt_1_32)
      : FVec Ideal S512x512 .f32) (ix2 p q) = eyeE a b p q := by
  show FloatOps.sitofp (F := Ideal) .f32 ((IntOp.cmpi .eq
      (IntOp.addi (Scalar.muli a 512#32) (iota .tc S512x512 32 [0] iota_S512x512_d0_w32 (ix2 p q)))
      (IntOp.addi (Scalar.muli b 512#32) (iota .tc S512x512 32 [1] iota_S512x512_d1_w32 (ix2 p q)))).setWidth 32) = _
  rw [iota_single_apply, iota_single_apply]
  rfl

/-! ## The two running sums at one grid point -/

/-- The first running sum over an arbitrary Gram tile. -/
theorem pay18_stage (a b : BitVec 32) (G : FVec Ideal S512x512 .f32) (acc : Vec Ideal S1x1 .f32) (t : S1x1.Idx) :
    k0_pay18 (F := Ideal) a b G acc t
      = acc t + ∑ p : Fin 512, ∑ q : Fin 512, (G (ix2 p q) - eyeE a b p q) * (G (ix2 p q) - eyeE a b p q) := by
  unfold k0_pay18
  show acc t + shapeCast S1x1 _ shapeCasts_S1_S1x1 t = _
  refine congrArg (acc t + ·) ((twoStepSum _ t).trans ?_)
  refine Finset.sum_congr rfl fun p _ => Finset.sum_congr rfl fun q _ => ?_
  show (G (ix2 p q) - _) * (G (ix2 p q) - _) = _
  rw [eyeVec_apply]

/-- What grid point (i, j) adds to the first running sum. -/
theorem scratch0_step (i j : Fin 8) (A D : Blk) (s : ℝ) :
    k0_pay1 (F := Ideal) (k0_pay18 (BitVec.ofNat 32 i.val) (BitVec.ofNat 32 j.val) (k0_pay13 (blkArr A) (blkArr D))
        (fun _ => ((s : ℝ) : EReal)))
      = fun _ => ((s + tileOrth i j A D : ℝ) : EReal) := by
  unfold k0_pay1
  rw [shapeCast_self]
  funext t
  rw [pay18_stage]
  unfold tileOrth
  rw [EReal.coe_add, ← sum_real]
  refine congrArg (_ + ·) (Finset.sum_congr rfl fun p _ => Finset.sum_congr rfl fun q _ => ?_)
  rw [pay13_apply, eyeE_real, ← EReal.coe_sub, ← EReal.coe_mul]

/-- The second running sum over three arbitrary kernel tiles. -/
theorem pay2_stage (K1 K2 K3 : FVec Ideal S512x512 .f32) (acc : Vec Ideal S1x1 .f32) (t : S1x1.Idx) :
    k0_pay2 (F := Ideal) K1 K2 K3 acc t
      = acc t + (((∑ p : Fin 512, ∑ q : Fin 512, K1 (ix2 p q)) + (∑ p : Fin 512, ∑ q : Fin 512, K2 (ix2 p q)))
          - 2 * (∑ p : Fin 512, ∑ q : Fin 512, K3 (ix2 p q))) := by
  unfold k0_pay2
  simp only [shapeCast_self]
  show acc t + ((shapeCast S1x1 _ shapeCasts_S1_S1x1 t + shapeCast S1x1 _ shapeCasts_S1_S1x1 t)
      - Ideal.ofBits .f32 0x40000000#32 * shapeCast S1x1 _ shapeCasts_S1_S1x1 t) = _
  refine congrArg (acc t + ·) ?_
  exact congrArg₂ (· - ·) (congrArg₂ (· + ·) (twoStepSum K1 t) (twoStepSum K2 t))
    (congrArg₂ (· * ·) two_f32 (twoStepSum K3 t))

/-- A tile's sum of Gaussian kernels is the double sum of its entries. -/
theorem tileGauss_eq (A B : Blk) (na nb : Col) :
    tileGauss A B na nb = ∑ p : Fin 512, ∑ q : Fin 512, gaussB A B na nb p q := rfl

/-- The first kernel tile's sum. -/
theorem sum_kxx (A B : Blk) (na nb : Col) :
    (∑ p : Fin 512, ∑ q : Fin 512,
        k0_pay15 (F := Ideal) (k0_pay14 (blkArr A) (blkArr B) (colArr na) (colArr nb)) (ix2 p q))
      = ((tileGauss A B na nb : ℝ) : EReal) :=
  (Finset.sum_congr rfl fun p _ => Finset.sum_congr rfl fun q _ => kxx_apply A B na nb p q).trans
    (sum_real (gaussB A B na nb))

/-- The second kernel tile's sum. -/
theorem sum_kyy (C D : Blk) (nc nd : Col) :
    (∑ p : Fin 512, ∑ q : Fin 512,
        k0_pay16 (F := Ideal) (k0_pay10 (colArr nc)) (k0_pay11 (colArr nd)) (k0_pay12 (blkArr C) (blkArr D)) (ix2 p q))
      = ((tileGauss C D nc nd : ℝ) : EReal) :=
  (Finset.sum_congr rfl fun p _ => Finset.sum_congr rfl fun q _ => kyy_apply C D nc nd p q).trans
    (sum_real (gaussB C D nc nd))

/-- The mixed kernel tile's sum. -/
theorem sum_kxy (A D : Blk) (na nd : Col) :
    (∑ p : Fin 512, ∑ q : Fin 512,
        k0_pay17 (F := Ideal) (k0_pay9 (colArr na)) (k0_pay11 (colArr nd)) (k0_pay13 (blkArr A) (blkArr D)) (ix2 p q))
      = ((tileGauss A D na nd : ℝ) : EReal) :=
  (Finset.sum_congr rfl fun p _ => Finset.sum_congr rfl fun q _ => kxy_apply A D na nd p q).trans
    (sum_real (gaussB A D na nd))

/-- The combination xx + yy - 2 xy added to a real, over the reals. -/
theorem mmd_real (s g1 g2 g3 : ℝ) :
    (s : EReal) + (((g1 : EReal) + (g2 : EReal)) - 2 * (g3 : EReal)) = ((s + (g1 + g2 - 2 * g3) : ℝ) : EReal) := by
  have h2 : (2 : EReal) = ((2 : ℝ) : EReal) := by norm_cast
  rw [h2, ← EReal.coe_add, ← EReal.coe_mul, ← EReal.coe_sub, ← EReal.coe_add]

/-- What a grid point adds to the second running sum. -/
theorem scratch1_step (A B C D : Blk) (na nb nc nd : Col) (s : ℝ) :
    k0_pay2 (F := Ideal)
        (k0_pay15 (k0_pay14 (blkArr A) (blkArr B) (colArr na) (colArr nb)))
        (k0_pay16 (k0_pay10 (colArr nc)) (k0_pay11 (colArr nd)) (k0_pay12 (blkArr C) (blkArr D)))
        (k0_pay17 (k0_pay9 (colArr na)) (k0_pay11 (colArr nd)) (k0_pay13 (blkArr A) (blkArr D)))
        (fun _ => ((s : ℝ) : EReal))
      = fun _ => ((s + tileMmd A B C D na nb nc nd : ℝ) : EReal) := by
  funext t
  refine (pay2_stage _ _ _ _ t).trans ?_
  refine (congrArg (((s : ℝ) : EReal) + ·) (congrArg₂ (· - ·)
    (congrArg₂ (· + ·) (sum_kxx A B na nb) (sum_kyy C D nc nd))
    (congrArg ((2 : EReal) * ·) (sum_kxy A D na nd)))).trans ?_
  exact mmd_real s (tileGauss A B na nb) (tileGauss C D nc nd) (tileGauss A D na nd)

/-! ## The starting values and the hand-over -/

/-- The first running sum starts at zero. -/
theorem zero0 : k0_pay5 (F := Ideal) = fun _ => ((0 : ℝ) : EReal) := by
  unfold k0_pay5
  simp only [shapeCast_self]
  funext t
  show Ideal.ofBits .f32 0x00000000#32 = _
  rw [Ideal.ofBits_zero_f32]
  rfl

/-- The second running sum starts at zero. -/
theorem zero1 : k0_pay6 (F := Ideal) = fun _ => ((0 : ℝ) : EReal) := by
  unfold k0_pay6
  simp only [shapeCast_self]
  funext t
  show Ideal.ofBits .f32 0x00000000#32 = _
  rw [Ideal.ofBits_zero_f32]
  rfl

/-- A one-entry matrix cast to a one-entry rank-3 array holds its one entry. -/
theorem cast_111 (v : Vec Ideal S1x1 .f32) :
    shapeCast S1x1x1 v shapeCasts_S1x1_S1x1x1 = fun _ => v (ix2 (0 : Fin 1) (0 : Fin 1)) := by
  funext t
  refine (shapeCast_addUnit_apply ![1, 1] v shapeCasts_S1x1_S1x1x1 t).trans (congrArg v (funext fun a => ?_))
  match a with
  | ⟨0, _⟩ => exact Subsingleton.elim (α := Fin 1) _ _
  | ⟨1, _⟩ => exact Subsingleton.elim (α := Fin 1) _ _

/-- The first result block receives the first running sum. -/
theorem out_of_scratch (v : Vec Ideal S1x1 .f32) :
    k0_pay3 (F := Ideal) v = fun _ => v (ix2 (0 : Fin 1) (0 : Fin 1)) := by
  unfold k0_pay3
  exact cast_111 v

/-- The second result block receives the second running sum. -/
theorem out_of_scratch1 (v : Vec Ideal S1x1 .f32) :
    k0_pay4 (F := Ideal) v = fun _ => v (ix2 (0 : Fin 1) (0 : Fin 1)) := by
  unfold k0_pay4
  exact cast_111 v

end Cert.Combo.Tile

end
-- ==== Proof.LibGridSum.lean ====
import Idealize.ShloMosaic.Lib.ValueIdx

/-!
# Tiling a double sum over a square grid

A double sum over an `8192 × 8192` square of indices equals the sum, over the `64` tiles of an
`8 × 8` grid taken in row-major order, of the double sums over each `1024 × 1024` tile.

The argument is pure reindexing, so it holds in any commutative additive monoid: an index
`i < A * K` is written uniquely as `K * a + r` with `a < A` and `r < K`, which splits a sum over
`Fin (A * K)` into a sum over `a` of sums over `r`.  Doing this for the rows, the columns and the
tile number, and then exchanging the two middle sums, gives the statement.
-/

namespace Cert.GridSum

/-- A sum over `Fin (A * K)` splits into `A` consecutive blocks of length `K`:
the index `(a, r)` stands for `K * a + r`. -/
theorem sum_fin_mul {M : Type*} [AddCommMonoid M] (A K : ℕ) (g : Fin (A * K) → M) :
    ∑ i : Fin (A * K), g i = ∑ a : Fin A, ∑ r : Fin K, g (finProdFinEquiv (a, r)) := by
  exact (Equiv.sum_comp finProdFinEquiv g).symm.trans (Fintype.sum_prod_type _)

/-- Row `r` of tile `s` (tiles numbered row-major in an `8 × 8` grid):
global row `1024 * (s / 8) + r`. -/
def rowOf (s : Fin 64) (r : Fin 1024) : Fin 8192 := ⟨1024 * (s.val / 8) + r.val, by omega⟩

/-- Column `c` of tile `s`: global column `1024 * (s % 8) + c`. -/
def colOf (s : Fin 64) (c : Fin 1024) : Fin 8192 := ⟨1024 * (s.val % 8) + c.val, by omega⟩

/-- The row of tile `8 * a + b` at offset `r` is the global row `1024 * a + r`. -/
theorem rowOf_pair (a b : Fin 8) (r : Fin 1024) :
    rowOf (finProdFinEquiv (a, b) : Fin (8 * 8)) r = (finProdFinEquiv (a, r) : Fin (8 * 1024)) := by
  apply Fin.ext
  have ha := a.isLt
  have hb := b.isLt
  simp only [rowOf, finProdFinEquiv, Equiv.coe_fn_mk]
  omega

/-- The column of tile `8 * a + b` at offset `c` is the global column `1024 * b + c`. -/
theorem colOf_pair (a b : Fin 8) (c : Fin 1024) :
    colOf (finProdFinEquiv (a, b) : Fin (8 * 8)) c = (finProdFinEquiv (b, c) : Fin (8 * 1024)) := by
  apply Fin.ext
  have ha := a.isLt
  have hb := b.isLt
  simp only [colOf, finProdFinEquiv, Equiv.coe_fn_mk]
  omega

/-- The double sum over the `8192 × 8192` square is the sum over the `64` tiles, in row-major
order, of the double sums over the `1024 × 1024` tiles. -/
theorem sum_tiles {M : Type*} [AddCommMonoid M] (f : Fin 8192 → Fin 8192 → M) :
    ∑ s : Fin 64, ∑ r : Fin 1024, ∑ c : Fin 1024, f (rowOf s r) (colOf s c)
      = ∑ i : Fin 8192, ∑ j : Fin 8192, f i j := by
  -- left side: split the tile number `s = 8 * a + b`
  have hL : ∑ s : Fin 64, ∑ r : Fin 1024, ∑ c : Fin 1024, f (rowOf s r) (colOf s c)
      = ∑ a : Fin 8, ∑ b : Fin 8, ∑ r : Fin 1024, ∑ c : Fin 1024,
          f (finProdFinEquiv (a, r) : Fin (8 * 1024)) (finProdFinEquiv (b, c) : Fin (8 * 1024)) := by
    have h := sum_fin_mul (M := M) 8 8
      (fun s : Fin (8 * 8) => ∑ r : Fin 1024, ∑ c : Fin 1024, f (rowOf s r) (colOf s c))
    refine h.trans ?_
    refine Finset.sum_congr rfl fun a _ => Finset.sum_congr rfl fun b _ => ?_
    refine Finset.sum_congr rfl fun r _ => Finset.sum_congr rfl fun c _ => ?_
    rw [rowOf_pair, colOf_pair]
  -- right side: split the row `i = 1024 * a + r` and the column `j = 1024 * b + c`
  have hR : ∑ i : Fin 8192, ∑ j : Fin 8192, f i j
      = ∑ a : Fin 8, ∑ r : Fin 1024, ∑ b : Fin 8, ∑ c : Fin 1024,
          f (finProdFinEquiv (a, r) : Fin (8 * 1024)) (finProdFinEquiv (b, c) : Fin (8 * 1024)) := by
    have h := sum_fin_mul (M := M) 8 1024 (fun i : Fin (8 * 1024) => ∑ j : Fin 8192, f i j)
    refine h.trans ?_
    refine Finset.sum_congr rfl fun a _ => Finset.sum_congr rfl fun r _ => ?_
    exact sum_fin_mul (M := M) 8 1024
      (fun j : Fin (8 * 1024) => f (finProdFinEquiv (a, r) : Fin (8 * 1024)) j)
  rw [hL, hR]
  -- exchange the sum over the tile column `b` with the sum over the row offset `r`
  refine Finset.sum_congr rfl fun a _ => ?_
  exact Finset.sum_comm

end Cert.GridSum
-- ==== Proof.Tiling.lean ====
/-
  Summing tile by tile gives the same result as summing over all pairs of rows.

  A row number r < 4096 is written uniquely as 512 i + p with i < 8 and p < 512, so a sum over all pairs of rows
  (r, c) is the sum over the 64 pairs of row groups (i, j) of the sums over the pairs of offsets (p, q).  On the
  tile (i, j) the Gram entry, the squared norms and the identity's entry of the rows 512 i + p and 512 j + q are
  the ones the tile's blocks and columns carry, so each tile's sums are the corresponding part of the full sums;
  what is left is that finite sums distribute over +, - and a constant factor.
-/
import proofs.«174178_j69131793596443_2_alg».proof.Proof.Spec
import proofs.«174178_j69131793596443_2_alg».proof.Proof.LibGridSum
import Mathlib

noncomputable section

open scoped BigOperators

namespace Cert.Combo

/-- Row `p` of group `i` is the row numbered by the pair `(i, p)` in the splitting of `4096 = 8 * 512`. -/
theorem rowAt_eq_pair (i : Fin 8) (p : Fin 512) :
    rowAt i p = (finProdFinEquiv (i, p) : Fin (8 * 512)) := by
  apply Fin.ext
  simp only [rowAt, finProdFinEquiv, Equiv.coe_fn_mk]
  omega

/-- A sum over the 4096 rows is the sum over the 8 groups of the sums over the 512 rows of each group. -/
theorem sum_rows (g : Fin 4096 → ℝ) : ∑ r : Fin 4096, g r = ∑ i : Fin 8, ∑ p : Fin 512, g (rowAt i p) := by
  have h := Cert.GridSum.sum_fin_mul (M := ℝ) 8 512 (fun r : Fin (8 * 512) => g r)
  refine h.trans ?_
  refine Finset.sum_congr rfl fun i _ => Finset.sum_congr rfl fun p _ => ?_
  rw [rowAt_eq_pair]

/-- A sum over all pairs of rows is the sum over the pairs of groups of the sums over the pairs of offsets. -/
theorem sumAll_tiles (f : Fin 4096 → Fin 4096 → ℝ) :
    sumAll f = ∑ i : Fin 8, ∑ j : Fin 8, ∑ p : Fin 512, ∑ q : Fin 512, f (rowAt i p) (rowAt j q) := by
  unfold sumAll
  rw [sum_rows]
  refine Finset.sum_congr rfl fun i _ => ?_
  have h : ∀ p : Fin 512, ∑ c : Fin 4096, f (rowAt i p) c
      = ∑ j : Fin 8, ∑ q : Fin 512, f (rowAt i p) (rowAt j q) := fun p => sum_rows _
  rw [Finset.sum_congr rfl fun p _ => h p]
  exact Finset.sum_comm

/-- The identity's entry at rows `512 i + p` and `512 j + q`. -/
theorem eyeR_rowAt (i j : Fin 8) (p q : Fin 512) :
    eyeR (rowAt i p) (rowAt j q) = if 512 * i.val + p.val = 512 * j.val + q.val then 1 else 0 := by
  unfold eyeR rowAt
  simp only [Fin.mk.injEq]

/-- A tile's sum of squared deviations is the part of the full sum over the tile's rows. -/
theorem tileOrth_rowBlk (x y : Mat) (i j : Fin 8) :
    tileOrth i j (rowBlk x i) (rowBlk y j)
      = ∑ p : Fin 512, ∑ q : Fin 512, orthR x y (rowAt i p) (rowAt j q) := by
  unfold tileOrth orthR
  refine Finset.sum_congr rfl fun p _ => Finset.sum_congr rfl fun q _ => ?_
  rw [eyeR_rowAt]
  rfl

/-- A tile's sum of Gaussian kernels is the part of the full sum over the tile's rows. -/
theorem tileGauss_rowBlk (a b : Mat) (i j : Fin 8) :
    tileGauss (rowBlk a i) (rowBlk b j) (normBlk a i) (normBlk b j)
      = ∑ p : Fin 512, ∑ q : Fin 512, gaussR a b (rowAt i p) (rowAt j q) := rfl

/-- Summed tile by tile, the result is the same. -/
theorem totalTiled_eq (x y : Mat) : totalTiled x y = total x y := by
  unfold totalTiled total tileMmd
  rw [sumAll_tiles (orthR x y), sumAll_tiles (gaussR x x), sumAll_tiles (gaussR y y),
    sumAll_tiles (gaussR x y)]
  simp only [tileOrth_rowBlk, tileGauss_rowBlk, Finset.sum_add_distrib, Finset.sum_sub_distrib,
    ← Finset.mul_sum]

end Cert.Combo

end
-- ==== Proof.KernelIdeal.Value.lean ====
/-
  What the idealized kernel computes, for real tables.

  After the body at grid point (i, j) the first scratch buffer holds the sum over j' <= j of the tile (i, j')'s squared
  deviations of the Gram matrix from the identity, and the second the like sum of the tiles' kernel terms
  xx + yy - 2 xy: at j = 0 the body starts from zero, at every later point it adds the point's tile to what the point
  before left (an induction on the position). At j = 7 the two sums are copied to entry i of the two outputs, so the
  output arrays end holding, entry by entry, each row block's sums over all eight tiles; the host operations after the
  region add the sixteen numbers and divide by 4096^2.
-/
import proofs.«174178_j69131793596443_2_alg».proof.Proof.KernelIdeal.Main
import proofs.«174178_j69131793596443_2_alg».proof.Proof.KernelIdeal.Pieces
import proofs.«174178_j69131793596443_2_alg».proof.Proof.KernelIdeal.HostSide
import proofs.«174178_j69131793596443_2_alg».proof.Proof.TileValue
import proofs.«174178_j69131793596443_2_alg».proof.Proof.Tiling
import Idealize.ShloMosaic.Lib.Pipeline.Value

set_option maxRecDepth 16384

noncomputable section

open scoped BigOperators

namespace Cert.KernelIdeal.Hand

open Cert.KernelIdeal Cert.KernelIdeal.Gen Cert.Combo Cert.Combo.Tile
open Idealize.ShloMosaic Idealize.ShloMosaic.TcCoe Idealize.ShloMosaic.ValueIdx Idealize.SL.Sem
open Idealize.ShloMosaic.Pipeline (Dat)

/-! ## A row block's running sums -/

/-- The sum over the tiles `(i, j)` with `j < k` of the squared deviations. -/
def partO (xr yr : Mat) (i : Fin 8) (k : ℕ) : ℝ :=
  ∑ j ∈ Finset.univ.filter (fun j : Fin 8 => j.val < k), tileOrth i j (rowBlk xr i) (rowBlk yr j)

/-- The sum over the tiles `(i, j)` with `j < k` of the kernel terms. -/
def partM (xr yr : Mat) (i : Fin 8) (k : ℕ) : ℝ :=
  ∑ j ∈ Finset.univ.filter (fun j : Fin 8 => j.val < k),
    tileMmd (rowBlk xr i) (rowBlk xr j) (rowBlk yr i) (rowBlk yr j) (normBlk xr i) (normBlk xr j) (normBlk yr i) (normBlk yr j)

theorem filter_lt_zero : Finset.univ.filter (fun j : Fin 8 => j.val < 0) = ∅ :=
  Finset.filter_eq_empty_iff.mpr fun j _ => Nat.not_lt_zero _

theorem filter_lt_succ (j : Fin 8) :
    Finset.univ.filter (fun j' : Fin 8 => j'.val < j.val + 1) = insert j (Finset.univ.filter (fun j' : Fin 8 => j'.val < j.val)) := by
  ext j'
  simp only [Finset.mem_filter, Finset.mem_univ, true_and, Finset.mem_insert, Fin.ext_iff]
  omega

theorem filter_lt_eight : Finset.univ.filter (fun j : Fin 8 => j.val < 8) = Finset.univ :=
  Finset.filter_true_of_mem fun j _ => j.isLt

theorem partO_zero (xr yr : Mat) (i : Fin 8) : partO xr yr i 0 = 0 := by
  unfold partO; rw [filter_lt_zero, Finset.sum_empty]
theorem partM_zero (xr yr : Mat) (i : Fin 8) : partM xr yr i 0 = 0 := by
  unfold partM; rw [filter_lt_zero, Finset.sum_empty]

theorem partO_succ (xr yr : Mat) (i j : Fin 8) :
    partO xr yr i (j.val + 1) = partO xr yr i j.val + tileOrth i j (rowBlk xr i) (rowBlk yr j) := by
  unfold partO
  rw [filter_lt_succ, Finset.sum_insert (by simp), add_comm]
theorem partM_succ (xr yr : Mat) (i j : Fin 8) :
    partM xr yr i (j.val + 1) = partM xr yr i j.val
      + tileMmd (rowBlk xr i) (rowBlk xr j) (rowBlk yr i) (rowBlk yr j) (normBlk xr i) (normBlk xr j) (normBlk yr i) (normBlk yr j) := by
  unfold partM
  rw [filter_lt_succ, Finset.sum_insert (by simp), add_comm]

theorem partO_eight (xr yr : Mat) (i : Fin 8) : partO xr yr i 8 = ∑ j : Fin 8, tileOrth i j (rowBlk xr i) (rowBlk yr j) := by
  unfold partO; rw [filter_lt_eight]
theorem partM_eight (xr yr : Mat) (i : Fin 8) : partM xr yr i 8 = ∑ j : Fin 8,
    tileMmd (rowBlk xr i) (rowBlk xr j) (rowBlk yr i) (rowBlk yr j) (normBlk xr i) (normBlk xr j) (normBlk yr i) (normBlk yr j) := by
  unfold partM; rw [filter_lt_eight]

/-! ## The grid's coordinates -/

/-- Position `t` of the 8 x 8 grid is the point `(t / 8, t % 8)`. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The row block of position `n`. -/
def rowOf (n : ℕ) (hn : n < cfg0.N) : Fin 8 := ⟨n / 8, by have : cfg0.N = 64 := N_0; omega⟩
/-- The column block of position `n`. -/
def colOf (n : ℕ) (hn : n < cfg0.N) : Fin 8 := ⟨n % 8, Nat.mod_lt _ (by decide)⟩

theorem coords_row (n : ℕ) (hn : n < cfg0.N) : (grid0.coords ⟨n, hn⟩ 0 : Fin 8) = rowOf n hn :=
  Fin.ext (coords_val ⟨n, hn⟩).1
theorem coords_col (n : ℕ) (hn : n < cfg0.N) : (grid0.coords ⟨n, hn⟩ 1 : Fin 8) = colOf n hn :=
  Fin.ext (coords_val ⟨n, hn⟩).2

variable (m : (ℓ : Loc nD τ sig) → Buf (Elt Ideal) ℓ) (ρ : Dev nD → PrngReg)
variable (c : Dev nD) (xr yr : Mat)
  (hx : m ((c.tc : Thread nD τ).loc main_arg0) = toArr xr) (hy : m ((c.tc : Thread nD τ).loc main_arg1) = toArr yr)

/-! ## The scratch buffers after each point -/

include hx hy in
/-- After the body at position `n` the two scratch buffers hold the row block's running sums over the tiles up to the
    position's column block. -/
theorem scratch_at : ∀ (n : ℕ) (hn : n < cfg0.N),
    (outsAt0 (F := Ideal) m c n hn).2.2.1 = (fun _ => ((partO xr yr (rowOf n hn) (n % 8 + 1) : ℝ) : EReal))
    ∧ (outsAt0 (F := Ideal) m c n hn).2.2.2 = (fun _ => ((partM xr yr (rowOf n hn) (n % 8 + 1) : ℝ) : EReal)) := by
  intro n
  induction n with
  | zero =>
    intro hn
    have h0 : (⟨0, hn⟩ : Fin cfg0.N).val % 8 = 0 := rfl
    have h1 : ¬(⟨0, hn⟩ : Fin cfg0.N).val % 8 = 7 := by show ¬(0 % 8 = 7); decide
    rw [outsAt0_A m c ⟨0, hn⟩ h0 h1]
    unfold stepA
    dsimp only
    rw [sout0_A_0_eq, sout0_A_1_eq]
    rw [iblk0 m c _ xr hx, iblk1 m c _ xr hx, iblk2 m c _ yr hy, iblk3 m c _ yr hy, iblk4 m c _ xr hx, iblk5 m c _ xr hx,
      iblk6 m c _ yr hy, iblk7 m c _ yr hy, zero0, zero1, coords_row, coords_col]
    constructor
    · refine (scratch0_step (rowOf 0 hn) (colOf 0 hn) _ _ 0).trans ?_
      funext _
      rw [show (0 : ℕ) % 8 + 1 = (colOf 0 hn).val + 1 from rfl, partO_succ, show (colOf 0 hn).val = 0 from rfl, partO_zero]
    · refine (scratch1_step _ _ _ _ _ _ _ _ 0).trans ?_
      funext _
      rw [show (0 : ℕ) % 8 + 1 = (colOf 0 hn).val + 1 from rfl, partM_succ, show (colOf 0 hn).val = 0 from rfl, partM_zero]
  | succ n ih =>
    intro hn
    have hN : cfg0.N = 64 := N_0
    by_cases h0 : (n + 1) % 8 = 0
    · have h1 : ¬(n + 1) % 8 = 7 := by omega
      rw [outsAt0_A m c ⟨n + 1, hn⟩ h0 h1]
      unfold stepA
      dsimp only
      rw [sout0_A_0_eq, sout0_A_1_eq]
      rw [iblk0 m c _ xr hx, iblk1 m c _ xr hx, iblk2 m c _ yr hy, iblk3 m c _ yr hy, iblk4 m c _ xr hx, iblk5 m c _ xr hx,
        iblk6 m c _ yr hy, iblk7 m c _ yr hy, zero0, zero1, coords_row, coords_col]
      have hcol : (colOf (n + 1) hn).val = 0 := h0
      constructor
      · refine (scratch0_step (rowOf (n + 1) hn) (colOf (n + 1) hn) _ _ 0).trans ?_
        funext _
        rw [show (n + 1) % 8 + 1 = (colOf (n + 1) hn).val + 1 from rfl, partO_succ, hcol, partO_zero]
      · refine (scratch1_step _ _ _ _ _ _ _ _ 0).trans ?_
        funext _
        rw [show (n + 1) % 8 + 1 = (colOf (n + 1) hn).val + 1 from rfl, partM_succ, hcol, partM_zero]
    · obtain ⟨ih0, ih1⟩ := ih (Nat.lt_of_succ_lt hn)
      have hrow : rowOf n (Nat.lt_of_succ_lt hn) = rowOf (n + 1) hn := Fin.ext (by show n / 8 = (n + 1) / 8; omega)
      have hk : n % 8 + 1 = (colOf (n + 1) hn).val := by show n % 8 + 1 = (n + 1) % 8; omega
      rw [hrow, hk] at ih0 ih1
      by_cases h1 : (n + 1) % 8 = 7
      · rw [outsAt0_C m c ⟨n + 1, hn⟩ h0 h1]
        unfold stepC
        dsimp only
        rw [sout0_C_0_eq, sout0_C_1_eq]
        simp only [Nat.add_sub_cancel]
        rw [ih0, ih1]
        rw [iblk0 m c _ xr hx, iblk1 m c _ xr hx, iblk2 m c _ yr hy, iblk3 m c _ yr hy, iblk4 m c _ xr hx, iblk5 m c _ xr hx,
          iblk6 m c _ yr hy, iblk7 m c _ yr hy, coords_row, coords_col]
        constructor
        · refine (scratch0_step (rowOf (n + 1) hn) (colOf (n + 1) hn) _ _ _).trans ?_
          funext _
          rw [show (n + 1) % 8 + 1 = (colOf (n + 1) hn).val + 1 from rfl, partO_succ]
        · refine (scratch1_step _ _ _ _ _ _ _ _ _).trans ?_
          funext _
          rw [show (n + 1) % 8 + 1 = (colOf (n + 1) hn).val + 1 from rfl, partM_succ]
      · rw [outsAt0_B m c ⟨n + 1, hn⟩ h0 h1]
        unfold stepB
        dsimp only
        rw [sout0_B_0_eq, sout0_B_1_eq]
        simp only [Nat.add_sub_cancel]
        rw [ih0, ih1]
        rw [iblk0 m c _ xr hx, iblk1 m c _ xr hx, iblk2 m c _ yr hy, iblk3 m c _ yr hy, iblk4 m c _ xr hx, iblk5 m c _ xr hx,
          iblk6 m c _ yr hy, iblk7 m c _ yr hy, coords_row, coords_col]
        constructor
        · refine (scratch0_step (rowOf (n + 1) hn) (colOf (n + 1) hn) _ _ _).trans ?_
          funext _
          rw [show (n + 1) % 8 + 1 = (colOf (n + 1) hn).val + 1 from rfl, partO_succ]
        · refine (scratch1_step _ _ _ _ _ _ _ _ _).trans ?_
          funext _
          rw [show (n + 1) % 8 + 1 = (colOf (n + 1) hn).val + 1 from rfl, partM_succ]

end Cert.KernelIdeal.Hand

end
-- ==== Proof.KernelIdeal.Result.lean ====
/-
  The idealized kernel's result for real tables: the run of @main ends with its result buffer at the number
  Cert.Combo.total of the two tables, and both tables as launched.

  At the last point of row block i (position 8 i + 7) the body copies the row block's two sums to entry i of the two
  output arrays; the eight flushed blocks tile each array, so the arrays end holding the eight row blocks' sums. The
  host operations after the region add the sixteen numbers and divide by 4096^2, which is the tiled form of the total.
-/
import proofs.«174178_j69131793596443_2_alg».proof.Proof.KernelIdeal.Value

set_option maxRecDepth 16384

noncomputable section

open scoped BigOperators

namespace Cert.KernelIdeal.Hand

open Cert.KernelIdeal Cert.KernelIdeal.Gen Cert.Combo Cert.Combo.Tile
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)
variable (c : Dev nD) (xr yr : Mat)
  (hx : m ((c.tc : Thread nD τ).loc main_arg0) = toArr xr) (hy : m ((c.tc : Thread nD τ).loc main_arg1) = toArr yr)

/-! ## The outputs' staging buffers at the last point of a row block -/

include hx hy in
theorem out_at (n : ℕ) (hn : n < cfg0.N) (h7 : n % 8 = 7) :
    (outsAt0 (F := Ideal) m c n hn).1 = (fun _ => ((partO xr yr (rowOf n hn) 8 : ℝ) : EReal))
    ∧ (outsAt0 (F := Ideal) m c n hn).2.1 = (fun _ => ((partM xr yr (rowOf n hn) 8 : ℝ) : EReal)) := by
  have h0 : ¬(⟨n, hn⟩ : Fin cfg0.N).val % 8 = 0 := by show ¬n % 8 = 0; omega
  have h1 : (⟨n, hn⟩ : Fin cfg0.N).val % 8 = 7 := h7
  obtain ⟨hs0, hs1⟩ := scratch_at m c xr yr hx hy n hn
  rw [show n % 8 + 1 = 8 from by omega] at hs0 hs1
  rw [outsAt0_C m c ⟨n, hn⟩ h0 h1] at hs0 hs1 ⊢
  unfold stepC at hs0 hs1 ⊢
  dsimp only at hs0 hs1 ⊢
  rw [sout0_C_0_eq] at hs0
  rw [sout0_C_1_eq] at hs1
  rw [out0_C_8_eq, out0_C_9_eq, hs0, hs1, out_of_scratch, out_of_scratch1]
  exact ⟨rfl, rfl⟩

/-! ## The output arrays at the end -/

/-- Row block by row block, the summed squared deviations. -/
def sumsO (xr yr : Mat) : S8x1x1.Idx → EReal := fun a => ((partO xr yr (a 0) 8 : ℝ) : EReal)
/-- Row block by row block, the summed kernel terms. -/
def sumsM (xr yr : Mat) : S8x1x1.Idx → EReal := fun a => ((partM xr yr (a 0) 8 : ℝ) : EReal)

/-- The two output windows' index maps: block `(t / 8, 0, 0)`. -/
theorem out_idx : ∀ t : Fin cfg0.N,
    (win0_8.index t 0 = t.val / 8 ∧ win0_8.index t 1 = 0 ∧ win0_8.index t 2 = 0)
    ∧ (win0_9.index t 0 = t.val / 8 ∧ win0_9.index t 1 = 0 ∧ win0_9.index t 2 = 0) :=
  (by decide +kernel : ∀ t : Fin grid0.N,
    (win0_8.index t 0 = t.val / 8 ∧ win0_8.index t 1 = 0 ∧ win0_8.index t 2 = 0)
    ∧ (win0_9.index t 0 = t.val / 8 ∧ win0_9.index t 1 = 0 ∧ win0_9.index t 2 = 0))

include hx hy in
/-- A write-back of output 8 writes the row block's sum into its entry. -/
theorem flushed8 (t : Fin cfg0.N) (hf : (cfg0.win 8).flush t = true) :
    (dats (F := Ideal) m 0 c).flushed 8 t = ((cfg0.win 8).blk t).view.read (Elt Ideal) (sumsO xr yr) := by
  have h7 : t.val % 8 = 7 := (flush0_8 t).mp hf
  show (cfg0.win 8).cut (grid0.coords t) ((dats (F := Ideal) m 0 c).after 8 t) = _
  rw [after0_8, (out_at m c xr yr hx hy t.val t.isLt h7).1]
  funext y
  rw [View.read_apply]
  show ((partO xr yr (rowOf t.val t.isLt) 8 : ℝ) : EReal) = sumsO xr yr _
  unfold sumsO
  congr 2
  apply Fin.ext
  show t.val / 8 = win0_8.index t 0 * 1 + 1 * (y 0).val
  have hy0 : (y 0).val < 1 := (y 0).isLt
  rw [(out_idx t).1.1]; omega

include hx hy in
theorem flushed9 (t : Fin cfg0.N) (hf : (cfg0.win 9).flush t = true) :
    (dats (F := Ideal) m 0 c).flushed 9 t = ((cfg0.win 9).blk t).view.read (Elt Ideal) (sumsM xr yr) := by
  have h7 : t.val % 8 = 7 := (flush0_9 t).mp hf
  show (cfg0.win 9).cut (grid0.coords t) ((dats (F := Ideal) m 0 c).after 9 t) = _
  rw [after0_9, (out_at m c xr yr hx hy t.val t.isLt h7).2]
  funext y
  rw [View.read_apply]
  show ((partM xr yr (rowOf t.val t.isLt) 8 : ℝ) : EReal) = sumsM xr yr _
  unfold sumsM
  congr 2
  apply Fin.ext
  show t.val / 8 = win0_9.index t 0 * 1 + 1 * (y 0).val
  have hy0 : (y 0).val < 1 := (y 0).isLt
  rw [(out_idx t).2.1]; omega

/-- Entry `a` of an output array is in the block flushed at the last point of row block `a 0`. -/
theorem last_pt (a : S8x1x1.Idx) : 8 * (a 0).val + 7 < cfg0.N := by
  have : cfg0.N = 64 := N_0
  have : (a 0).val < 8 := (a 0).isLt
  omega

theorem cover8 (a : S8x1x1.Idx) : ∃ t : Fin cfg0.N, (cfg0.win 8).flush t = true ∧ a ∈ ((cfg0.win 8).blk t).view.set := by
  have ha0 : (a 0).val < 8 := (a 0).isLt
  have ha1 : (a 1).val < 1 := (a 1).isLt
  have ha2 : (a 2).val < 1 := (a 2).isLt
  refine ⟨⟨8 * (a 0).val + 7, last_pt a⟩, (flush0_8 _).mpr (by show (8 * (a 0).val + 7) % 8 = 7; omega), ?_⟩
  show a ∈ ((View.whole main_call0_v8_0).slice (win0_8.rect ⟨8 * (a 0).val + 7, last_pt a⟩)).set
  rw [View.set_slice_whole, Rect.mem_set_unit]
  intro b
  have hi := (out_idx ⟨8 * (a 0).val + 7, last_pt a⟩).1
  match b with
  | ⟨0, _⟩ => show win0_8.index _ 0 * 1 ≤ (a 0 : Nat) ∧ (a 0 : Nat) < win0_8.index _ 0 * 1 + 1
              rw [hi.1]; show (8 * (a 0).val + 7) / 8 * 1 ≤ _ ∧ _ < (8 * (a 0).val + 7) / 8 * 1 + 1; omega
  | ⟨1, _⟩ => show win0_8.index _ 1 * 1 ≤ (a 1 : Nat) ∧ (a 1 : Nat) < win0_8.index _ 1 * 1 + 1
              rw [hi.2.1]; omega
  | ⟨2, _⟩ => show win0_8.index _ 2 * 1 ≤ (a 2 : Nat) ∧ (a 2 : Nat) < win0_8.index _ 2 * 1 + 1
              rw [hi.2.2]; omega

theorem cover9 (a : S8x1x1.Idx) : ∃ t : Fin cfg0.N, (cfg0.win 9).flush t = true ∧ a ∈ ((cfg0.win 9).blk t).view.set := by
  have ha0 : (a 0).val < 8 := (a 0).isLt
  have ha1 : (a 1).val < 1 := (a 1).isLt
  have ha2 : (a 2).val < 1 := (a 2).isLt
  refine ⟨⟨8 * (a 0).val + 7, last_pt a⟩, (flush0_9 _).mpr (by show (8 * (a 0).val + 7) % 8 = 7; omega), ?_⟩
  show a ∈ ((View.whole main_call0_v8_1).slice (win0_9.rect ⟨8 * (a 0).val + 7, last_pt a⟩)).set
  rw [View.set_slice_whole, Rect.mem_set_unit]
  intro b
  have hi := (out_idx ⟨8 * (a 0).val + 7, last_pt a⟩).2
  match b with
  | ⟨0, _⟩ => show win0_9.index _ 0 * 1 ≤ (a 0 : Nat) ∧ (a 0 : Nat) < win0_9.index _ 0 * 1 + 1
              rw [hi.1]; show (8 * (a 0).val + 7) / 8 * 1 ≤ _ ∧ _ < (8 * (a 0).val + 7) / 8 * 1 + 1; omega
  | ⟨1, _⟩ => show win0_9.index _ 1 * 1 ≤ (a 1 : Nat) ∧ (a 1 : Nat) < win0_9.index _ 1 * 1 + 1
              rw [hi.2.1]; omega
  | ⟨2, _⟩ => show win0_9.index _ 2 * 1 ≤ (a 2 : Nat) ∧ (a 2 : Nat) < win0_9.index _ 2 * 1 + 1
              rw [hi.2.2]; omega

include hx hy in
theorem final8 : (dats (F := Ideal) m 0 c).arrAt 8 cfg0.N = sumsO xr yr :=
  (dats (F := Ideal) m 0 c).arrAt_eq_of_cover 8 (sumsO xr yr) (flushed8 m c xr yr hx hy) cover8
include hx hy in
theorem final9 : (dats (F := Ideal) m 0 c).arrAt 9 cfg0.N = sumsM xr yr :=
  (dats (F := Ideal) m 0 c).arrAt_eq_of_cover 9 (sumsM xr yr) (flushed9 m c xr yr hx hy) cover9

include hx hy in
/-- The result buffer after the host operations that follow the region. -/
theorem result_value :
    StableHlo.after (List.flatten [hostOps1, hostOps1_1]) (VN (F := Ideal) m c) (Proc.devRef .tc main_v2)
      = fun _ => ((total xr yr : ℝ) : EReal) := by
  rw [tail_value (VN (F := Ideal) m c) (fun i => partO xr yr i 8) (fun i => partM xr yr i 8)
    ((VN_out8 m c).trans (final8 m c xr yr hx hy)) ((VN_out9 m c).trans (final9 m c xr yr hx hy))]
  funext _
  rw [← totalTiled_eq]
  unfold totalTiled
  simp only [partO_eight, partM_eight]

end Cert.KernelIdeal.Hand

/-! ## The run -/

namespace Cert.KernelIdeal.Hand

open Cert.KernelIdeal Cert.KernelIdeal.Gen Cert.Combo
open Idealize.ShloMosaic Idealize.ShloMosaic.TcCoe Idealize.SL.Sem

/-- For tables of reals: every weakly fair execution of the idealized kernel's @main terminates with the result at
    the total of the two tables and both tables as launched. -/
theorem value_run (m : (ℓ : Loc nD τ sig) → Buf (Elt Ideal) ℓ) (ρ : Dev nD → PrngReg) (xr yr : Dev nD → Mat)
    (hx : ∀ c : Dev nD, m ((c.tc : Thread nD τ).loc main_arg0) = toArr (xr c))
    (hy : ∀ c : Dev nD, m ((c.tc : Thread nD τ).loc main_arg1) = toArr (yr c)) :
    θ_run (defs (F := Ideal)) (onTc (τ := τ) (main (F := Ideal))) ⟨m, fun _ => 0, ρ⟩ (fun r => ∀ c : Dev nD,
      r.2.mem ((c.tc : Thread nD τ).loc main_v2) = (fun _ => ((total (xr c) (yr c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (result_value m c (xr c) (yr c) (hx c) (hy c)),
     ((h c).2 main_arg0 (Pipeline.mem_restRefs_of main_arg0 (by decide) (by decide))).trans
        ((tail_keeps_arg0 _).trans ((VN_other m c main_arg0 (by decide) (by decide)).trans (V_main_arg0 m c))),
     ((h c).2 main_arg1 (Pipeline.mem_restRefs_of main_arg1 (by decide) (by decide))).trans
        ((tail_keeps_arg1 _).trans ((VN_other m c main_arg1 (by decide) (by decide)).trans (V_main_arg1 m c)))⟩)
    (run_main m ρ)

end Cert.KernelIdeal.Hand

end
-- ==== Proof.RefValue.lean ====
/-
  The reference program on real tables.

  When its two arguments are tables of reals, every stage of the reference is the coercion of a real stage: the Gram
  entries, the identity's entries, the squared deviations, the rows' squared norms, the clamped squared distances and
  the Gaussian kernels, each read at one pair of rows; then the four sums over all pairs of rows, each the coerced
  double sum; then the scalar tail, an identity of the reals. So the reference's result is the coerced real `total`.
-/
import proofs.«174178_j69131793596443_2_alg».proof.Proof.Gen.ReferenceIdeal.Read
import proofs.«174178_j69131793596443_2_alg».proof.Proof.Spec
import proofs.«174178_j69131793596443_2_alg».proof.Proof.LibRealStages

noncomputable section

open scoped BigOperators

namespace Cert.Combo.Ref

open Cert.ReferenceIdeal Cert.ReferenceIdeal.Gen Cert.ReferenceIdeal.Read Idealize.ShloMosaic Cert.Combo Cert.Combo.RealStages

/-- A real table as the reference's argument. -/
abbrev arg (a : Mat) : (⟨S4096x512, .f32⟩ : BufTy).Contents (Elt Ideal) := toArr a

/-- The sum of the coerced products along two rows is the coerced Gram entry. -/
theorem gram_sum (a b : Mat) (r c : Fin 4096) :
    (∑ k : Fin 512, ((a r k : ℝ) : EReal) * ((b c k : ℝ) : EReal)) = ((dotR a b r c : ℝ) : EReal) := by
  simp only [← EReal.coe_mul]
  rw [coe_sum]; rfl

/-- The zero pattern plus the sum of the coerced squares along a row is the coerced squared norm. -/
theorem nrm_sum (a : Mat) (r : Fin 4096) :
    Ideal.ofBits .f32 0x00000000#32 + (∑ k : Fin 512, ((a r k : ℝ) : EReal) * ((a r k : ℝ) : EReal)) = ((nrmR a r : ℝ) : EReal) := by
  simp only [← EReal.coe_mul]
  rw [coe_sum, Ideal.ofBits_zero_f32, zero_add]; rfl

/-- The Gram stage of the two arguments. -/
theorem gram_xy (x y : Mat) (r c : Fin 4096) :
    val_main_v1 (F := Ideal) (arg x) (arg y) (ValueIdx.ix2 r c) = ((dotR x y r c : ℝ) : EReal) := by
  rw [val_main_v1_apply]
  simp only [val_main_v0_apply]
  exact gram_sum x y r c

/-- The Gram stage of the first argument with itself. -/
theorem gram_xx (x : Mat) (r c : Fin 4096) :
    val_main_v22 (F := Ideal) (arg x) (ValueIdx.ix2 r c) = ((dotR x x r c : ℝ) : EReal) := by
  rw [val_main_v22_apply]
  simp only [val_main_v21_apply]
  exact gram_sum x x r c

/-- The Gram stage of the second argument with itself. -/
theorem gram_yy (y : Mat) (r c : Fin 4096) :
    val_main_v40 (F := Ideal) (arg y) (ValueIdx.ix2 r c) = ((dotR y y r c : ℝ) : EReal) := by
  rw [val_main_v40_apply]
  simp only [val_main_v39_apply]
  exact gram_sum y y r c

/-- The Gram stage of the two arguments, as the kernel sum's third term reads it. -/
theorem gram_xy' (x y : Mat) (r c : Fin 4096) :
    val_main_v58 (F := Ideal) (arg x) (arg y) (ValueIdx.ix2 r c) = ((dotR x y r c : ℝ) : EReal) := by
  rw [val_main_v58_apply]
  simp only [val_main_v57_apply]
  exact gram_sum x y r c

/-- Two row numbers below 4096 are equal exactly when their 32-bit words are. -/
theorem word_eq_iff (r c : Fin 4096) : BitVec.ofNat 32 r.val = BitVec.ofNat 32 c.val ↔ r = c := by
  constructor
  · intro h
    have := congrArg BitVec.toNat h
    simp only [BitVec.toNat_ofNat] at this
    have hr := r.isLt; have hc := c.isLt
    exact Fin.ext (by omega)
  · intro h; rw [h]

/-- The compare word of two row numbers, read as a float, is the identity's entry. -/
theorem eye_word (r c : Fin 4096) :
    (((IntOp.cmpi .eq (IntOp.addi (BitVec.ofNat 32 r.val) 0#32) (BitVec.ofNat 32 c.val)).toNat : ℝ) : EReal)
      = ((eyeR r c : ℝ) : EReal) := by
  show (((BitVec.ofBool (BitVec.ofNat 32 r.val + 0#32 == BitVec.ofNat 32 c.val)).toNat : ℝ) : EReal) = _
  unfold eyeR
  rw [BitVec.add_zero]
  by_cases h : r = c
  · rw [if_pos h, h]; simp
  · rw [if_neg h]
    have hw : ¬ BitVec.ofNat 32 r.val = BitVec.ofNat 32 c.val := fun e => h ((word_eq_iff _ _).mp e)
    simp [hw]

/-- The identity stage. -/
theorem eye_stage (r c : Fin 4096) :
    val_main_v7 (F := Ideal) (ValueIdx.ix2 r c) = ((eyeR r c : ℝ) : EReal) := by
  rw [val_main_v7_apply, val_main_v6_apply, val_main_v5_apply, val_main_v4_apply, val_main_c_apply, val_main_v2_apply,
    val_main_v3_apply]
  exact eye_word r c

/-- The squared deviation of the Gram entry from the identity's entry. -/
theorem orth_stage (x y : Mat) (r c : Fin 4096) :
    val_main_v9 (F := Ideal) (arg x) (arg y) (ValueIdx.ix2 r c) = ((orthR x y r c : ℝ) : EReal) := by
  rw [val_main_v9_apply, val_main_v8_apply, gram_xy, eye_stage]
  simp only [Ideal.mulf_def, Ideal.subf_def, ← EReal.coe_sub, ← EReal.coe_mul]
  rfl

/-! ## The rows' squared norms -/

/-- The squared norms of the first argument's rows, as the first kernel's row term reads them. -/
theorem nrm_v13 (x : Mat) (j : S4096.Idx) : val_main_v13 (F := Ideal) (arg x) j = ((nrmR x (j 0) : ℝ) : EReal) := by
  rw [val_main_v13_apply]
  simp only [val_main_v12_apply, val_main_cst_1_apply, Ideal.mulf_def, Ideal.ofBits_def]
  exact nrm_sum x (j 0)

/-- The squared norms of the first argument's rows, as the first kernel's column term reads them. -/
theorem nrm_v15 (x : Mat) (j : S4096.Idx) : val_main_v15 (F := Ideal) (arg x) j = ((nrmR x (j 0) : ℝ) : EReal) := by
  rw [val_main_v15_apply]
  simp only [val_main_v14_apply, val_main_cst_2_apply, Ideal.mulf_def, Ideal.ofBits_def]
  exact nrm_sum x (j 0)

/-- The squared norms of the second argument's rows, as the second kernel's row term reads them. -/
theorem nrm_v31 (y : Mat) (j : S4096.Idx) : val_main_v31 (F := Ideal) (arg y) j = ((nrmR y (j 0) : ℝ) : EReal) := by
  rw [val_main_v31_apply]
  simp only [val_main_v30_apply, val_main_cst_5_apply, Ideal.mulf_def, Ideal.ofBits_def]
  exact nrm_sum y (j 0)

/-- The squared norms of the second argument's rows, as the second kernel's column term reads them. -/
theorem nrm_v33 (y : Mat) (j : S4096.Idx) : val_main_v33 (F := Ideal) (arg y) j = ((nrmR y (j 0) : ℝ) : EReal) := by
  rw [val_main_v33_apply]
  simp only [val_main_v32_apply, val_main_cst_6_apply, Ideal.mulf_def, Ideal.ofBits_def]
  exact nrm_sum y (j 0)

/-- The squared norms of the first argument's rows, as the mixed kernel's row term reads them. -/
theorem nrm_v49 (x : Mat) (j : S4096.Idx) : val_main_v49 (F := Ideal) (arg x) j = ((nrmR x (j 0) : ℝ) : EReal) := by
  rw [val_main_v49_apply]
  simp only [val_main_v48_apply, val_main_cst_9_apply, Ideal.mulf_def, Ideal.ofBits_def]
  exact nrm_sum x (j 0)

/-- The squared norms of the second argument's rows, as the mixed kernel's column term reads them. -/
theorem nrm_v51 (y : Mat) (j : S4096.Idx) : val_main_v51 (F := Ideal) (arg y) j = ((nrmR y (j 0) : ℝ) : EReal) := by
  rw [val_main_v51_apply]
  simp only [val_main_v50_apply, val_main_cst_10_apply, Ideal.mulf_def, Ideal.ofBits_def]
  exact nrm_sum y (j 0)

/-! ## The clamped squared distances and the Gaussian kernels -/

/-- The clamp, the negation and the exponential of real stages: `exp (-(max (na + nb - 2 g) 0))`. -/
theorem gauss_real (na nb g : ℝ) :
    Ideal.exp (-(max (((na : ℝ) : EReal) + ((nb : ℝ) : EReal) - ((2 : ℝ) : EReal) * ((g : ℝ) : EReal)) 0))
      = ((Real.exp (-(max (na + nb - 2 * g) 0)) : ℝ) : EReal) := by
  rw [← EReal.coe_add, ← EReal.coe_mul, ← EReal.coe_sub, ← EReal.coe_zero, max_coe_coe, ← EReal.coe_neg, Ideal.exp_coe]

/-- The Gaussian kernel stage of the first argument with itself. -/
theorem gauss_xx (x : Mat) (r c : Fin 4096) :
    val_main_v29 (F := Ideal) (arg x) (ValueIdx.ix2 r c) = ((gaussR x x r c : ℝ) : EReal) := by
  rw [val_main_v29_apply, val_main_v28_apply, val_main_v27_apply, val_main_v25_apply, val_main_v20_apply, val_main_v18_apply,
    val_main_v16_apply, nrm_v13, val_main_v19_apply, val_main_v17_apply, nrm_v15, val_main_v24_apply, val_main_v23_apply,
    val_main_cst_3_apply, gram_xx, val_main_v26_apply, val_main_cst_4_apply]
  simp only [Ideal.addf_def, Ideal.subf_def, Ideal.mulf_def, Ideal.maximumf_def, Ideal.ofBits_def, Ideal.hostNegf_def,
    Ideal.negf_def, Ideal.hostUnary_exp_def, ofBits_two, Ideal.ofBits_zero_f32]
  exact gauss_real (nrmR x r) (nrmR x c) (dotR x x r c)

/-- The Gaussian kernel stage of the second argument with itself. -/
theorem gauss_yy (y : Mat) (r c : Fin 4096) :
    val_main_v47 (F := Ideal) (arg y) (ValueIdx.ix2 r c) = ((gaussR y y r c : ℝ) : EReal) := by
  rw [val_main_v47_apply, val_main_v46_apply, val_main_v45_apply, val_main_v43_apply, val_main_v38_apply, val_main_v36_apply,
    val_main_v34_apply, nrm_v31, val_main_v37_apply, val_main_v35_apply, nrm_v33, val_main_v42_apply, val_main_v41_apply,
    val_main_cst_7_apply, gram_yy, val_main_v44_apply, val_main_cst_8_apply]
  simp only [Ideal.addf_def, Ideal.subf_def, Ideal.mulf_def, Ideal.maximumf_def, Ideal.ofBits_def, Ideal.hostNegf_def,
    Ideal.negf_def, Ideal.hostUnary_exp_def, ofBits_two, Ideal.ofBits_zero_f32]
  exact gauss_real (nrmR y r) (nrmR y c) (dotR y y r c)

/-- The Gaussian kernel stage of the two arguments. -/
theorem gauss_xy (x y : Mat) (r c : Fin 4096) :
    val_main_v65 (F := Ideal) (arg x) (arg y) (ValueIdx.ix2 r c) = ((gaussR x y r c : ℝ) : EReal) := by
  rw [val_main_v65_apply, val_main_v64_apply, val_main_v63_apply, val_main_v61_apply, val_main_v56_apply, val_main_v54_apply,
    val_main_v52_apply, nrm_v49, val_main_v55_apply, val_main_v53_apply, nrm_v51, val_main_v60_apply, val_main_v59_apply,
    val_main_cst_11_apply, gram_xy', val_main_v62_apply, val_main_cst_12_apply]
  simp only [Ideal.addf_def, Ideal.subf_def, Ideal.mulf_def, Ideal.maximumf_def, Ideal.ofBits_def, Ideal.hostNegf_def,
    Ideal.negf_def, Ideal.hostUnary_exp_def, ofBits_two, Ideal.ofBits_zero_f32]
  exact gauss_real (nrmR x r) (nrmR y c) (dotR x y r c)

/-! ## The sums over all pairs of rows -/

/-- A stage that is a real function of the two coordinates sums, from the zero pattern, to the coerced double sum. -/
theorem sum_all_coe (f : Fin 4096 → Fin 4096 → ℝ) (g : S4096x4096.Idx → EReal)
    (h : ∀ r c : Fin 4096, g (ValueIdx.ix2 r c) = ((f r c : ℝ) : EReal)) :
    Ideal.ofBits .f32 0x00000000#32 + (∑ j : S4096x4096.Idx, g j) = ((sumAll f : ℝ) : EReal) := by
  rw [ValueIdx.sum_idx2, Ideal.ofBits_zero_f32, zero_add]
  simp only [h, coe_sum]
  rfl

/-- The summed squared deviations. -/
theorem sum_orth (x y : Mat) (i : S_.Idx) :
    val_main_v10 (F := Ideal) (arg x) (arg y) i = ((sumAll (orthR x y) : ℝ) : EReal) := by
  rw [val_main_v10_apply, val_main_cst_apply]
  exact sum_all_coe _ _ (orth_stage x y)

/-- The summed kernel of the first argument with itself. -/
theorem sum_xx (x : Mat) (i : S_.Idx) :
    val_main_v66 (F := Ideal) (arg x) i = ((sumAll (gaussR x x) : ℝ) : EReal) := by
  rw [val_main_v66_apply, val_main_cst_13_apply]
  exact sum_all_coe _ _ (gauss_xx x)

/-- The summed kernel of the two arguments. -/
theorem sum_xy (x y : Mat) (i : S_.Idx) :
    val_main_v68 (F := Ideal) (arg x) (arg y) i = ((sumAll (gaussR x y) : ℝ) : EReal) := by
  rw [val_main_v68_apply, val_main_cst_15_apply]
  exact sum_all_coe _ _ (gauss_xy x y)

/-- The summed kernel of the second argument with itself. -/
theorem sum_yy (y : Mat) (i : S_.Idx) :
    val_main_v72 (F := Ideal) (arg y) i = ((sumAll (gaussR y y) : ℝ) : EReal) := by
  rw [val_main_v72_apply, val_main_cst_18_apply]
  exact sum_all_coe _ _ (gauss_yy y)

/-! ## The scalar tail -/

/-- The four means combined as the reference combines them are the result, in the reals. -/
theorem tail_real (so sxx sxy syy : ℝ) :
    so / 16777216 + (sxx / 16777216 - 2 * (sxy / 16777216) + syy / 16777216)
      = (so + (sxx + syy - 2 * sxy)) / 16777216 := by
  ring

/-- The last stage on real tables is the coerced result. -/
theorem last_stage (x y : Mat) (i : S_.Idx) :
    val_main_v75 (F := Ideal) (arg x) (arg y) i = ((total x y : ℝ) : EReal) := by
  rw [val_main_v75_apply, val_main_v11_apply, val_main_v74_apply, val_main_v71_apply, val_main_v67_apply, val_main_v70_apply,
    val_main_v69_apply, val_main_v73_apply, sum_orth, sum_xx, sum_xy, sum_yy, val_main_cst_0_apply, val_main_cst_14_apply,
    val_main_cst_16_apply, val_main_cst_17_apply, val_main_cst_19_apply]
  simp only [Ideal.addf_def, Ideal.subf_def, Ideal.mulf_def, Ideal.hostDivf_def, Ideal.ofBits_def, ofBits_two,
    ofBits_two_pow_24]
  rw [div_coe_coe _ (by norm_num : (16777216 : ℝ) ≠ 0), div_coe_coe _ (by norm_num : (16777216 : ℝ) ≠ 0),
    div_coe_coe _ (by norm_num : (16777216 : ℝ) ≠ 0), div_coe_coe _ (by norm_num : (16777216 : ℝ) ≠ 0),
    ← EReal.coe_mul, ← EReal.coe_sub, ← EReal.coe_add, ← EReal.coe_add, tail_real]
  rfl

/-- For arguments that are real tables the reference's result is the real number `total`, coerced. -/
theorem result_eq (m : (ℓ : Loc nD τ sig) → Buf (Elt Ideal) ℓ) (c : Dev nD) (xr yr : Mat)
    (hx : m ((c.tc : Thread nD τ).loc main_arg0) = toArr xr)
    (hy : m ((c.tc : Thread nD τ).loc main_arg1) = toArr yr) :
    Cert.ReferenceIdeal.Value.res_out0 (F := Ideal) m c = fun _ => ((total xr yr : ℝ) : EReal) := by
  refine (val_main_v75_eq (F := Ideal) m c).trans ?_
  rw [hx, hy]
  funext i
  exact last_stage xr yr i

end Cert.Combo.Ref

end
-- ==== Proof.Finite.lean ====
/-
  From the precondition to real tables.

  The precondition says of each argument array that every entry's absolute value is below +infinity.  In the
  extended reals the absolute value max x (-x) of either infinity is +infinity, so an entry of which this holds is
  a real; choosing that real at every entry gives a real table whose image in the extended reals is the array.
-/
import proofs.«174178_j69131793596443_2_alg».proof.Defs
import proofs.«174178_j69131793596443_2_alg».proof.Proof.Spec
import Idealize.ShloMosaic.Lib.ReduceAll
import Idealize.ShloMosaic.Lib.ValueIdx

noncomputable section

open Idealize.ShloMosaic Idealize.SL.Sem Idealize.ShloMosaic.ValueIdx

namespace Cert.Combo

/-- The scalar shape has one index. -/
instance scalarIdxSubsingleton : Subsingleton Cert.Pre_finite_inputs.S_.Idx := ⟨fun a b => funext fun d => d.elim0⟩

/-- An extended real whose absolute value `max x (-x)` is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` denotes `+∞`. -/
theorem ofBits_inf : Ideal.ofBits .f32 0x7F800000#32 = (⊤ : EReal) := by
  simp [Ideal.ofBits, Ideal.ieee]

/-- The comparison `|x| < +∞` coming out one says that `x` is a real. -/
theorem real_of_cmp (x : Ideal .f32)
    (h : FloatOps.cmpf (F := Ideal) .olt (FloatOps.hostAbsf x) (Ideal.ofBits .f32 0x7F800000#32) = 1#1) :
    ∃ r : ℝ, x = (r : EReal) := by
  have h' : BitVec.ofBool (decide (max (x : EReal) (-x) < Ideal.ofBits .f32 0x7F800000#32)) = 1#1 := h
  rw [ofBits_inf] at h'
  refine real_of_abs_lt_top x ?_
  by_contra hn
  rw [decide_eq_false hn] at h'
  exact absurd h' (by decide)

/-- The printed predicate coming out one says that every entry of both arrays is a real. -/
theorem entries_real [hP : Cert.Pre_finite_inputs.Facts]
    (a b : FVec Ideal Cert.Pre_finite_inputs.S4096x512 .f32)
    (h : Cert.Pre_finite_inputs.fn (F := Ideal) a b = (fun _ => 1#1)) :
    (∀ i, ∃ r : ℝ, a i = (r : EReal)) ∧ (∀ i, ∃ r : ℝ, b i = (r : EReal)) := by
  have h0 := congrFun h ix0
  dsimp only [Cert.Pre_finite_inputs.fn] at h0
  obtain ⟨ha, hb⟩ := IntOp.andi_eq_one.1 h0
  refine ⟨fun i => ?_, fun i => ?_⟩
  · have := Host.reduce_andi_all _ _ _ _ _ ha i
    exact real_of_cmp (a i) this
  · have := Host.reduce_andi_all _ _ _ _ _ hb i
    exact real_of_cmp (b i) this

/-- The table of the reals that a pointwise real array denotes. -/
def realTable (a : FVec Ideal Cert.Pre_finite_inputs.S4096x512 .f32) : Mat := fun r k => (a (ix2 r k) : EReal).toReal

/-- The image of the table of reals, at an index: the real part of the array's entry there. -/
theorem toArr_realTable_apply (a : FVec Ideal Cert.Pre_finite_inputs.S4096x512 .f32)
    (i : Cert.Pre_finite_inputs.S4096x512.Idx) :
    toArr (realTable a) i = (((a i : EReal).toReal : ℝ) : EReal) :=
  congrArg (fun j => (((a j : EReal).toReal : ℝ) : EReal)) (eq_ix2 i).symm

/-- An array all of whose entries are reals is the image of its table of reals. -/
theorem eq_toArr_realTable (a : FVec Ideal Cert.Pre_finite_inputs.S4096x512 .f32)
    (ha : ∀ i, ∃ r : ℝ, a i = (r : EReal)) : a = toArr (realTable a) := by
  funext i
  obtain ⟨r, hr⟩ := ha i
  rw [toArr_realTable_apply, hr, EReal.toReal_coe]

/-- Under the precondition both argument arrays, on every device, are real tables. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ xr yr : Cert.Combo.Mat,
      m ((c.tc : Thread _ _).loc Cert.KernelIdeal.main_arg0) = Cert.Combo.toArr xr
        ∧ m ((c.tc : Thread _ _).loc Cert.KernelIdeal.main_arg1) = Cert.Combo.toArr yr := by
  obtain ⟨hx, hy⟩ := entries_real _ _ (h c)
  exact ⟨_, _, eq_toArr_realTable _ hx, eq_toArr_realTable _ hy⟩

end Cert.Combo

end
-- ==== Proof.lean ====
/-
  The certificate of the pairwise-loss kernel against its reference.

  For two tables x, y of 4096 rows of 512 numbers both programs compute
    ( sum over (r, c) of (<x_r, y_c> - [r = c])^2
      + sum over (r, c) of ( k(x_r, x_c) + k(y_r, y_c) - 2 k(x_r, y_c) ) ) / 4096^2,
  with k(a, b) = exp(-max(|a|^2 + |b|^2 - 2 <a, b>, 0)). The kernel walks an 8 x 8 grid of 512 x 512 tiles, keeps the
  two sums of a row of tiles in two one-entry scratch buffers, writes them out at the row's last tile, and lets the
  host add the sixteen numbers and divide once; the reference forms the three 4096 x 4096 matrices whole and divides
  each sum before adding. Over the extended reals the two agree once every entry of x and y is a real number (the
  precondition): every intermediate quantity is then a real, and over the reals regrouping the sums and moving the
  division across them changes nothing.

  Frames: the kernel's two forms run to the end and leave x and y untouched (the pipeline's run, with each input array
  read through two windows); the reference is a straight line of host operations. The idealization rewrote nothing.
-/
import proofs.«174178_j69131793596443_2_alg».proof.Defs
import proofs.«174178_j69131793596443_2_alg».proof.Proof.Gen.Kernel
import proofs.«174178_j69131793596443_2_alg».proof.Proof.Gen.KernelIdeal
import proofs.«174178_j69131793596443_2_alg».proof.Proof.Gen.ReferenceIdeal
import proofs.«174178_j69131793596443_2_alg».proof.Proof.Gen.Pre_finite_inputs
import proofs.«174178_j69131793596443_2_alg».proof.Proof.Gen.ReferenceIdeal.Read
import proofs.«174178_j69131793596443_2_alg».proof.Proof.Kernel.Main
import proofs.«174178_j69131793596443_2_alg».proof.Proof.KernelIdeal.Result
import proofs.«174178_j69131793596443_2_alg».proof.Proof.RefValue
import proofs.«174178_j69131793596443_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves both tables as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- For tables of reals both programs end with the result at the same real number. -/
theorem algebraic : Cert.algebraic_KernelIdeal_ReferenceIdeal := by
  intro m ρ m' ρ' hpre hagree
  choose xr yr hx hy using fun c => Cert.Combo.real_of_pre m hpre c
  refine ⟨fun c => fun _ => ((Cert.Combo.total (xr c) (yr c) : ℝ) : EReal), Cert.KernelIdeal.Hand.value_run m ρ xr yr hx hy, ?_⟩
  refine (θ_run Cert.ReferenceIdeal.defs _ _).mono (fun _ h c => ⟨(h c).1.trans ?_, (h c).2⟩)
    (Cert.ReferenceIdeal.Value.run (F := Ideal) m' ρ')
  exact Cert.Combo.Ref.result_eq m' c (xr c) (yr c) ((hagree c).1.trans (hx c)) ((hagree c).2.trans (hy c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
